-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1x10x512x2x2 : Shape := ⟨5, ![1, 10, 512, 2, 2]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1x10x512x2x2 : S_.BroadcastsInDim S1x10x512x2x2 (![] : Fin 0 → Fin S1x10x512x2x2.rank)
  reducesTo_S1x10x512x2x2_S_d0_1_2_3_4 : S1x10x512x2x2.ReducesTo [0, 1, 2, 3, 4] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S32768x1024 .f32) (main_arg1 : FVec F S1x10x512x2x2 .f32) (main_arg2 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1x10x512x2x2 .f32 := Host.absf main_arg1
  let main_cst_0 : FVec F S_ .f32 := constant S_ .f32 0x7F800000#32
  let main_v5 : FVec F S1x10x512x2x2 .f32 := broadcastInDim S1x10x512x2x2 ![] bcast_S_S1x10x512x2x2 main_cst_0
  let main_v6 : IVec S1x10x512x2x2 1 := cmpf .olt main_v4 main_v5
  let main_c_1 : IVec S_ 1 := constantI S_ 1 1#1
  let main_v7 : IVec S_ 1 := (fun x v => Host.reduce IntOp.andi x v reducesTo_S1x10x512x2x2_S_d0_1_2_3_4 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S32768x1024 : Shape := ⟨2, ![32768, 1024]⟩
abbrev S1x10x512x2x2 : Shape := ⟨5, ![1, 10, 512, 2, 2]⟩
abbrev S1024 : Shape := ⟨1, ![1024]⟩
abbrev S1024x1024 : Shape := ⟨2, ![1024, 1024]⟩
abbrev S_ : Shape := ⟨0, ![]⟩
abbrev S1024x1x1024 : Shape := ⟨3, ![1024, 1, 1024]⟩
abbrev S1x1x512x2x2 : Shape := ⟨5, ![1, 1, 512, 2, 2]⟩
abbrev S1x512x2x2 : Shape := ⟨4, ![1, 512, 2, 2]⟩
abbrev S1x512x1x2x2 : Shape := ⟨5, ![1, 512, 1, 2, 2]⟩
abbrev S1x512x2x2x1 : Shape := ⟨5, ![1, 512, 2, 2, 1]⟩
abbrev S1024x1x512x1x2x1 : Shape := ⟨6, ![1024, 1, 512, 1, 2, 1]⟩
abbrev S1x1x512x2x2x1 : Shape := ⟨6, ![1, 1, 512, 2, 2, 1]⟩
abbrev S1024x1x512x2x2x1 : Shape := ⟨6, ![1024, 1, 512, 2, 2, 1]⟩
abbrev S1024x1x512x2x1 : Shape := ⟨5, ![1024, 1, 512, 2, 1]⟩
abbrev S1x256x2x2x2 : Shape := ⟨5, ![1, 256, 2, 2, 2]⟩
abbrev S1024x1x256x1x2x2 : Shape := ⟨6, ![1024, 1, 256, 1, 2, 2]⟩
abbrev S1x1x256x2x2x2 : Shape := ⟨6, ![1, 1, 256, 2, 2, 2]⟩
abbrev S1024x1x256x2x2x2 : Shape := ⟨6, ![1024, 1, 256, 2, 2, 2]⟩
abbrev S1024x1x256x2x2 : Shape := ⟨5, ![1024, 1, 256, 2, 2]⟩
abbrev S1x128x4x2x2 : Shape := ⟨5, ![1, 128, 4, 2, 2]⟩
abbrev S1x128x2x2x4 : Shape := ⟨5, ![1, 128, 2, 2, 4]⟩
abbrev S1024x1x128x1x2x4 : Shape := ⟨6, ![1024, 1, 128, 1, 2, 4]⟩
abbrev S1x1x128x2x2x4 : Shape := ⟨6, ![1, 1, 128, 2, 2, 4]⟩
abbrev S1024x1x128x2x2x4 : Shape := ⟨6, ![1024, 1, 128, 2, 2, 4]⟩
abbrev S1024x1x128x2x4 : Shape := ⟨5, ![1024, 1, 128, 2, 4]⟩
abbrev S1x64x8x2x2 : Shape := ⟨5, ![1, 64, 8, 2, 2]⟩
abbrev S1x64x2x2x8 : Shape := ⟨5, ![1, 64, 2, 2, 8]⟩
abbrev S1024x1x64x1x2x8 : Shape := ⟨6, ![1024, 1, 64, 1, 2, 8]⟩
abbrev S1x1x64x2x2x8 : Shape := ⟨6, ![1, 1, 64, 2, 2, 8]⟩
abbrev S1024x1x64x2x2x8 : Shape := ⟨6, ![1024, 1, 64, 2, 2, 8]⟩
abbrev S1024x1x64x2x8 : Shape := ⟨5, ![1024, 1, 64, 2, 8]⟩
abbrev S1x32x16x2x2 : Shape := ⟨5, ![1, 32, 16, 2, 2]⟩
abbrev S1x32x2x2x16 : Shape := ⟨5, ![1, 32, 2, 2, 16]⟩
abbrev S1024x1x32x1x2x16 : Shape := ⟨6, ![1024, 1, 32, 1, 2, 16]⟩
abbrev S1x1x32x2x2x16 : Shape := ⟨6, ![1, 1, 32, 2, 2, 16]⟩
abbrev S1024x1x32x2x2x16 : Shape := ⟨6, ![1024, 1, 32, 2, 2, 16]⟩
abbrev S1024x1x32x2x16 : Shape := ⟨5, ![1024, 1, 32, 2, 16]⟩
abbrev S1x16x32x2x2 : Shape := ⟨5, ![1, 16, 32, 2, 2]⟩
abbrev S1x16x2x2x32 : Shape := ⟨5, ![1, 16, 2, 2, 32]⟩
abbrev S1024x1x16x1x2x32 : Shape := ⟨6, ![1024, 1, 16, 1, 2, 32]⟩
abbrev S1x1x16x2x2x32 : Shape := ⟨6, ![1, 1, 16, 2, 2, 32]⟩
abbrev S1024x1x16x2x2x32 : Shape := ⟨6, ![1024, 1, 16, 2, 2, 32]⟩
abbrev S1024x1x16x2x32 : Shape := ⟨5, ![1024, 1, 16, 2, 32]⟩
abbrev S1x8x64x2x2 : Shape := ⟨5, ![1, 8, 64, 2, 2]⟩
abbrev S1x8x2x2x64 : Shape := ⟨5, ![1, 8, 2, 2, 64]⟩
abbrev S1024x1x8x1x2x64 : Shape := ⟨6, ![1024, 1, 8, 1, 2, 64]⟩
abbrev S1x1x8x2x2x64 : Shape := ⟨6, ![1, 1, 8, 2, 2, 64]⟩
abbrev S1024x1x8x2x2x64 : Shape := ⟨6, ![1024, 1, 8, 2, 2, 64]⟩
abbrev S1024x1x8x2x64 : Shape := ⟨5, ![1024, 1, 8, 2, 64]⟩
abbrev S1x4x128x2x2 : Shape := ⟨5, ![1, 4, 128, 2, 2]⟩
abbrev S1x4x2x2x128 : Shape := ⟨5, ![1, 4, 2, 2, 128]⟩
abbrev S1024x1x4x1x2x128 : Shape := ⟨6, ![1024, 1, 4, 1, 2, 128]⟩
abbrev S1x1x4x2x2x128 : Shape := ⟨6, ![1, 1, 4, 2, 2, 128]⟩
abbrev S1024x1x4x2x2x128 : Shape := ⟨6, ![1024, 1, 4, 2, 2, 128]⟩
abbrev S1024x1x4x2x128 : Shape := ⟨5, ![1024, 1, 4, 2, 128]⟩
abbrev S1x2x256x2x2 : Shape := ⟨5, ![1, 2, 256, 2, 2]⟩
abbrev S1x2x2x2x256 : Shape := ⟨5, ![1, 2, 2, 2, 256]⟩
abbrev S1024x1x2x1x2x256 : Shape := ⟨6, ![1024, 1, 2, 1, 2, 256]⟩
abbrev S1x1x2x2x2x256 : Shape := ⟨6, ![1, 1, 2, 2, 2, 256]⟩
abbrev S1024x1x2x2x2x256 : Shape := ⟨6, ![1024, 1, 2, 2, 2, 256]⟩
abbrev S1024x1x2x2x256 : Shape := ⟨5, ![1024, 1, 2, 2, 256]⟩
abbrev S1x1x2x2x512 : Shape := ⟨5, ![1, 1, 2, 2, 512]⟩
abbrev S1024x1x1x1x2x512 : Shape := ⟨6, ![1024, 1, 1, 1, 2, 512]⟩
abbrev S1x1x1x2x2x512 : Shape := ⟨6, ![1, 1, 1, 2, 2, 512]⟩
abbrev S1024x1x1x2x2x512 : Shape := ⟨6, ![1024, 1, 1, 2, 2, 512]⟩
abbrev S1024x1x1x2x512 : Shape := ⟨5, ![1024, 1, 1, 2, 512]⟩
abbrev S1x1024 : Shape := ⟨2, ![1, 1024]⟩
abbrev S512x1024 : Shape := ⟨2, ![512, 1024]⟩

abbrev nBuf : Space → Nat
  | .hbm => 134
  | .vmem => 6
  | .smem => 0
  | _ => 0

abbrev hbmTy0_0 (i : Nat) : BufTy := match i % 128 with
  | 0 => ⟨S32768x1024, .f32⟩
  | 1 => ⟨S1x10x512x2x2, .f32⟩
  | 2 => ⟨S1024, .f32⟩
  | 3 => ⟨S1024x1024, .i32⟩
  | 4 => ⟨S1024x1024, .i32⟩
  | 5 => ⟨S_, .i32⟩
  | 6 => ⟨S1024x1024, .i32⟩
  | 7 => ⟨S1024x1024, .i32⟩
  | 8 => ⟨S1024x1024, .i1⟩
  | 9 => ⟨S1024x1024, .f32⟩
  | 10 => ⟨S1024x1x1024, .f32⟩
  | 11 => ⟨S1x1x512x2x2, .f32⟩
  | 12 => ⟨S1x512x2x2, .f32⟩
  | 13 => ⟨S1x512x1x2x2, .f32⟩
  | 14 => ⟨S1x512x2x2x1, .f32⟩
  | 15 => ⟨S1024x1x512x1x2x1, .f32⟩
  | 16 => ⟨S1x1x512x2x2x1, .f32⟩
  | 17 => ⟨S1024x1x512x2x2x1, .f32⟩
  | 18 => ⟨S1024x1x512x2x2x1, .f32⟩
  | 19 => ⟨S1024x1x512x2x2x1, .f32⟩
  | 20 => ⟨S_, .f32⟩
  | 21 => ⟨S1024x1x512x2x1, .f32⟩
  | 22 => ⟨S1024x1x1024, .f32⟩
  | 23 => ⟨S1x1x512x2x2, .f32⟩
  | 24 => ⟨S1x512x2x2, .f32⟩
  | 25 => ⟨S1x256x2x2x2, .f32⟩
  | 26 => ⟨S1x256x2x2x2, .f32⟩
  | 27 => ⟨S1024x1x256x1x2x2, .f32⟩
  | 28 => ⟨S1x1x256x2x2x2, .f32⟩
  | 29 => ⟨S1024x1x256x2x2x2, .f32⟩
  | 30 => ⟨S1024x1x256x2x2x2, .f32⟩
  | 31 => ⟨S1024x1x256x2x2x2, .f32⟩
  | 32 => ⟨S_, .f32⟩
  | 33 => ⟨S1024x1x256x2x2, .f32⟩
  | 34 => ⟨S1024x1x1024, .f32⟩
  | 35 => ⟨S1x1x512x2x2, .f32⟩
  | 36 => ⟨S1x512x2x2, .f32⟩
  | 37 => ⟨S1x128x4x2x2, .f32⟩
  | 38 => ⟨S1x128x2x2x4, .f32⟩
  | 39 => ⟨S1024x1x128x1x2x4, .f32⟩
  | 40 => ⟨S1x1x128x2x2x4, .f32⟩
  | 41 => ⟨S1024x1x128x2x2x4, .f32⟩
  | 42 => ⟨S1024x1x128x2x2x4, .f32⟩
  | 43 => ⟨S1024x1x128x2x2x4, .f32⟩
  | 44 => ⟨S_, .f32⟩
  | 45 => ⟨S1024x1x128x2x4, .f32⟩
  | 46 => ⟨S1024x1x1024, .f32⟩
  | 47 => ⟨S1x1x512x2x2, .f32⟩
  | 48 => ⟨S1x512x2x2, .f32⟩
  | 49 => ⟨S1x64x8x2x2, .f32⟩
  | 50 => ⟨S1x64x2x2x8, .f32⟩
  | 51 => ⟨S1024x1x64x1x2x8, .f32⟩
  | 52 => ⟨S1x1x64x2x2x8, .f32⟩
  | 53 => ⟨S1024x1x64x2x2x8, .f32⟩
  | 54 => ⟨S1024x1x64x2x2x8, .f32⟩
  | 55 => ⟨S1024x1x64x2x2x8, .f32⟩
  | 56 => ⟨S_, .f32⟩
  | 57 => ⟨S1024x1x64x2x8, .f32⟩
  | 58 => ⟨S1024x1x1024, .f32⟩
  | 59 => ⟨S1x1x512x2x2, .f32⟩
  | 60 => ⟨S1x512x2x2, .f32⟩
  | 61 => ⟨S1x32x16x2x2, .f32⟩
  | 62 => ⟨S1x32x2x2x16, .f32⟩
  | 63 => ⟨S1024x1x32x1x2x16, .f32⟩
  | 64 => ⟨S1x1x32x2x2x16, .f32⟩
  | 65 => ⟨S1024x1x32x2x2x16, .f32⟩
  | 66 => ⟨S1024x1x32x2x2x16, .f32⟩
  | 67 => ⟨S1024x1x32x2x2x16, .f32⟩
  | 68 => ⟨S_, .f32⟩
  | 69 => ⟨S1024x1x32x2x16, .f32⟩
  | 70 => ⟨S1024x1x1024, .f32⟩
  | 71 => ⟨S1x1x512x2x2, .f32⟩
  | 72 => ⟨S1x512x2x2, .f32⟩
  | 73 => ⟨S1x16x32x2x2, .f32⟩
  | 74 => ⟨S1x16x2x2x32, .f32⟩
  | 75 => ⟨S1024x1x16x1x2x32, .f32⟩
  | 76 => ⟨S1x1x16x2x2x32, .f32⟩
  | 77 => ⟨S1024x1x16x2x2x32, .f32⟩
  | 78 => ⟨S1024x1x16x2x2x32, .f32⟩
  | 79 => ⟨S1024x1x16x2x2x32, .f32⟩
  | 80 => ⟨S_, .f32⟩
  | 81 => ⟨S1024x1x16x2x32, .f32⟩
  | 82 => ⟨S1024x1x1024, .f32⟩
  | 83 => ⟨S1x1x512x2x2, .f32⟩
  | 84 => ⟨S1x512x2x2, .f32⟩
  | 85 => ⟨S1x8x64x2x2, .f32⟩
  | 86 => ⟨S1x8x2x2x64, .f32⟩
  | 87 => ⟨S1024x1x8x1x2x64, .f32⟩
  | 88 => ⟨S1x1x8x2x2x64, .f32⟩
  | 89 => ⟨S1024x1x8x2x2x64, .f32⟩
  | 90 => ⟨S1024x1x8x2x2x64, .f32⟩
  | 91 => ⟨S1024x1x8x2x2x64, .f32⟩
  | 92 => ⟨S_, .f32⟩
  | 93 => ⟨S1024x1x8x2x64, .f32⟩
  | 94 => ⟨S1024x1x1024, .f32⟩
  | 95 => ⟨S1x1x512x2x2, .f32⟩
  | 96 => ⟨S1x512x2x2, .f32⟩
  | 97 => ⟨S1x4x128x2x2, .f32⟩
  | 98 => ⟨S1x4x2x2x128, .f32⟩
  | 99 => ⟨S1024x1x4x1x2x128, .f32⟩
  | 100 => ⟨S1x1x4x2x2x128, .f32⟩
  | 101 => ⟨S1024x1x4x2x2x128, .f32⟩
  | 102 => ⟨S1024x1x4x2x2x128, .f32⟩
  | 103 => ⟨S1024x1x4x2x2x128, .f32⟩
  | 104 => ⟨S_, .f32⟩
  | 105 => ⟨S1024x1x4x2x128, .f32⟩
  | 106 => ⟨S1024x1x1024, .f32⟩
  | 107 => ⟨S1x1x512x2x2, .f32⟩
  | 108 => ⟨S1x512x2x2, .f32⟩
  | 109 => ⟨S1x2x256x2x2, .f32⟩
  | 110 => ⟨S1x2x2x2x256, .f32⟩
  | 111 => ⟨S1024x1x2x1x2x256, .f32⟩
  | 112 => ⟨S1x1x2x2x2x256, .f32⟩
  | 113 => ⟨S1024x1x2x2x2x256, .f32⟩
  | 114 => ⟨S1024x1x2x2x2x256, .f32⟩
  | 115 => ⟨S1024x1x2x2x2x256, .f32⟩
  | 116 => ⟨S_, .f32⟩
  | 117 => ⟨S1024x1x2x2x256, .f32⟩
  | 118 => ⟨S1024x1x1024, .f32⟩
  | 119 => ⟨S1x1x512x2x2, .f32⟩
  | 120 => ⟨S1x512x2x2, .f32⟩
  | 121 => ⟨S1x1x512x2x2, .f32⟩
  | 122 => ⟨S1x1x2x2x512, .f32⟩
  | 123 => ⟨S1024x1x1x1x2x512, .f32⟩
  | 124 => ⟨S1x1x1x2x2x512, .f32⟩
  | 125 => ⟨S1024x1x1x2x2x512, .f32⟩
  | 126 => ⟨S1024x1x1x2x2x512, .f32⟩
  | 127 => ⟨S1024x1x1x2x2x512, .f32⟩
  | _ => ⟨S32768x1024, .f32⟩

abbrev hbmTy0_1 (i : Nat) : BufTy := match i % 128 with
  | 0 => ⟨S_, .f32⟩
  | 1 => ⟨S1024x1x1x2x512, .f32⟩
  | 2 => ⟨S1024x1x1024, .f32⟩
  | 3 => ⟨S1024x1024, .f32⟩
  | 4 => ⟨S1x1024, .f32⟩
  | 5 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_1 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_cst_2 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_cst_3 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_cst_4 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_cst_5 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_cst_6 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_cst_7 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_cst_8 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1024x1024 : S_.BroadcastsInDim S1024x1024 (![] : Fin 0 → Fin S1024x1024.rank)
  bcast_S1024x1024_S1024x1x1024_0_2 : S1024x1024.BroadcastsInDim S1024x1x1024 (![0, 2] : Fin 2 → Fin S1024x1x1024.rank)
  slices_S1x10x512x2x2_S1x1x512x2x2_0_0_0_0_0 : S1x10x512x2x2.Slices ![0, 0, 0, 0, 0] S1x1x512x2x2
  shapeCasts_S1x1x512x2x2_S1x512x2x2 : S1x1x512x2x2.ShapeCasts S1x512x2x2
  shapeCasts_S1x512x2x2_S1x512x1x2x2 : S1x512x2x2.ShapeCasts S1x512x1x2x2
  transposes_S1x512x1x2x2_S1x512x2x2x1_0_1_3_4_2 : S1x512x1x2x2.Transposes [0, 1, 3, 4, 2] S1x512x2x2x1
  shapeCasts_S1024x1x1024_S1024x1x512x1x2x1 : S1024x1x1024.ShapeCasts S1024x1x512x1x2x1
  bcast_S1x512x2x2x1_S1x1x512x2x2x1_1_2_3_4_5 : S1x512x2x2x1.BroadcastsInDim S1x1x512x2x2x1 (![1, 2, 3, 4, 5] : Fin 5 → Fin S1x1x512x2x2x1.rank)
  bcast_S1x1x512x2x2x1_S1024x1x512x2x2x1_0_1_2_3_4_5 : S1x1x512x2x2x1.BroadcastsInDim S1024x1x512x2x2x1 (![0, 1, 2, 3, 4, 5] : Fin 6 → Fin S1024x1x512x2x2x1.rank)
  bcast_S1024x1x512x1x2x1_S1024x1x512x2x2x1_0_1_2_3_4_5 : S1024x1x512x1x2x1.BroadcastsInDim S1024x1x512x2x2x1 (![0, 1, 2, 3, 4, 5] : Fin 6 → Fin S1024x1x512x2x2x1.rank)
  reducesTo_S1024x1x512x2x2x1_S1024x1x512x2x1_d4 : S1024x1x512x2x2x1.ReducesTo [4] S1024x1x512x2x1
  h_S_ : 0 < S_.numel
  shapeCasts_S1024x1x512x2x1_S1024x1x1024 : S1024x1x512x2x1.ShapeCasts S1024x1x1024
  slices_S1x10x512x2x2_S1x1x512x2x2_0_1_0_0_0 : S1x10x512x2x2.Slices ![0, 1, 0, 0, 0] S1x1x512x2x2
  shapeCasts_S1x512x2x2_S1x256x2x2x2 : S1x512x2x2.ShapeCasts S1x256x2x2x2
  transposes_S1x256x2x2x2_S1x256x2x2x2_0_1_3_4_2 : S1x256x2x2x2.Transposes [0, 1, 3, 4, 2] S1x256x2x2x2
  shapeCasts_S1024x1x1024_S1024x1x256x1x2x2 : S1024x1x1024.ShapeCasts S1024x1x256x1x2x2
  bcast_S1x256x2x2x2_S1x1x256x2x2x2_1_2_3_4_5 : S1x256x2x2x2.BroadcastsInDim S1x1x256x2x2x2 (![1, 2, 3, 4, 5] : Fin 5 → Fin S1x1x256x2x2x2.rank)
  bcast_S1x1x256x2x2x2_S1024x1x256x2x2x2_0_1_2_3_4_5 : S1x1x256x2x2x2.BroadcastsInDim S1024x1x256x2x2x2 (![0, 1, 2, 3, 4, 5] : Fin 6 → Fin S1024x1x256x2x2x2.rank)
  bcast_S1024x1x256x1x2x2_S1024x1x256x2x2x2_0_1_2_3_4_5 : S1024x1x256x1x2x2.BroadcastsInDim S1024x1x256x2x2x2 (![0, 1, 2, 3, 4, 5] : Fin 6 → Fin S1024x1x256x2x2x2.rank)
  reducesTo_S1024x1x256x2x2x2_S1024x1x256x2x2_d4 : S1024x1x256x2x2x2.ReducesTo [4] S1024x1x256x2x2
  shapeCasts_S1024x1x256x2x2_S1024x1x1024 : S1024x1x256x2x2.ShapeCasts S1024x1x1024
  slices_S1x10x512x2x2_S1x1x512x2x2_0_2_0_0_0 : S1x10x512x2x2.Slices ![0, 2, 0, 0, 0] S1x1x512x2x2
  shapeCasts_S1x512x2x2_S1x128x4x2x2 : S1x512x2x2.ShapeCasts S1x128x4x2x2
  transposes_S1x128x4x2x2_S1x128x2x2x4_0_1_3_4_2 : S1x128x4x2x2.Transposes [0, 1, 3, 4, 2] S1x128x2x2x4
  shapeCasts_S1024x1x1024_S1024x1x128x1x2x4 : S1024x1x1024.ShapeCasts S1024x1x128x1x2x4
  bcast_S1x128x2x2x4_S1x1x128x2x2x4_1_2_3_4_5 : S1x128x2x2x4.BroadcastsInDim S1x1x128x2x2x4 (![1, 2, 3, 4, 5] : Fin 5 → Fin S1x1x128x2x2x4.rank)
  bcast_S1x1x128x2x2x4_S1024x1x128x2x2x4_0_1_2_3_4_5 : S1x1x128x2x2x4.BroadcastsInDim S1024x1x128x2x2x4 (![0, 1, 2, 3, 4, 5] : Fin 6 → Fin S1024x1x128x2x2x4.rank)
  bcast_S1024x1x128x1x2x4_S1024x1x128x2x2x4_0_1_2_3_4_5 : S1024x1x128x1x2x4.BroadcastsInDim S1024x1x128x2x2x4 (![0, 1, 2, 3, 4, 5] : Fin 6 → Fin S1024x1x128x2x2x4.rank)
  reducesTo_S1024x1x128x2x2x4_S1024x1x128x2x4_d4 : S1024x1x128x2x2x4.ReducesTo [4] S1024x1x128x2x4
  shapeCasts_S1024x1x128x2x4_S1024x1x1024 : S1024x1x128x2x4.ShapeCasts S1024x1x1024
  slices_S1x10x512x2x2_S1x1x512x2x2_0_3_0_0_0 : S1x10x512x2x2.Slices ![0, 3, 0, 0, 0] S1x1x512x2x2
  shapeCasts_S1x512x2x2_S1x64x8x2x2 : S1x512x2x2.ShapeCasts S1x64x8x2x2
  transposes_S1x64x8x2x2_S1x64x2x2x8_0_1_3_4_2 : S1x64x8x2x2.Transposes [0, 1, 3, 4, 2] S1x64x2x2x8
  shapeCasts_S1024x1x1024_S1024x1x64x1x2x8 : S1024x1x1024.ShapeCasts S1024x1x64x1x2x8
  bcast_S1x64x2x2x8_S1x1x64x2x2x8_1_2_3_4_5 : S1x64x2x2x8.BroadcastsInDim S1x1x64x2x2x8 (![1, 2, 3, 4, 5] : Fin 5 → Fin S1x1x64x2x2x8.rank)
  bcast_S1x1x64x2x2x8_S1024x1x64x2x2x8_0_1_2_3_4_5 : S1x1x64x2x2x8.BroadcastsInDim S1024x1x64x2x2x8 (![0, 1, 2, 3, 4, 5] : Fin 6 → Fin S1024x1x64x2x2x8.rank)
  bcast_S1024x1x64x1x2x8_S1024x1x64x2x2x8_0_1_2_3_4_5 : S1024x1x64x1x2x8.BroadcastsInDim S1024x1x64x2x2x8 (![0, 1, 2, 3, 4, 5] : Fin 6 → Fin S1024x1x64x2x2x8.rank)
  reducesTo_S1024x1x64x2x2x8_S1024x1x64x2x8_d4 : S1024x1x64x2x2x8.ReducesTo [4] S1024x1x64x2x8
  shapeCasts_S1024x1x64x2x8_S1024x1x1024 : S1024x1x64x2x8.ShapeCasts S1024x1x1024
  slices_S1x10x512x2x2_S1x1x512x2x2_0_4_0_0_0 : S1x10x512x2x2.Slices ![0, 4, 0, 0, 0] S1x1x512x2x2
  shapeCasts_S1x512x2x2_S1x32x16x2x2 : S1x512x2x2.ShapeCasts S1x32x16x2x2
  transposes_S1x32x16x2x2_S1x32x2x2x16_0_1_3_4_2 : S1x32x16x2x2.Transposes [0, 1, 3, 4, 2] S1x32x2x2x16
  shapeCasts_S1024x1x1024_S1024x1x32x1x2x16 : S1024x1x1024.ShapeCasts S1024x1x32x1x2x16
  bcast_S1x32x2x2x16_S1x1x32x2x2x16_1_2_3_4_5 : S1x32x2x2x16.BroadcastsInDim S1x1x32x2x2x16 (![1, 2, 3, 4, 5] : Fin 5 → Fin S1x1x32x2x2x16.rank)
  bcast_S1x1x32x2x2x16_S1024x1x32x2x2x16_0_1_2_3_4_5 : S1x1x32x2x2x16.BroadcastsInDim S1024x1x32x2x2x16 (![0, 1, 2, 3, 4, 5] : Fin 6 → Fin S1024x1x32x2x2x16.rank)
  bcast_S1024x1x32x1x2x16_S1024x1x32x2x2x16_0_1_2_3_4_5 : S1024x1x32x1x2x16.BroadcastsInDim S1024x1x32x2x2x16 (![0, 1, 2, 3, 4, 5] : Fin 6 → Fin S1024x1x32x2x2x16.rank)
  reducesTo_S1024x1x32x2x2x16_S1024x1x32x2x16_d4 : S1024x1x32x2x2x16.ReducesTo [4] S1024x1x32x2x16
  shapeCasts_S1024x1x32x2x16_S1024x1x1024 : S1024x1x32x2x16.ShapeCasts S1024x1x1024
  slices_S1x10x512x2x2_S1x1x512x2x2_0_5_0_0_0 : S1x10x512x2x2.Slices ![0, 5, 0, 0, 0] S1x1x512x2x2
  shapeCasts_S1x512x2x2_S1x16x32x2x2 : S1x512x2x2.ShapeCasts S1x16x32x2x2
  transposes_S1x16x32x2x2_S1x16x2x2x32_0_1_3_4_2 : S1x16x32x2x2.Transposes [0, 1, 3, 4, 2] S1x16x2x2x32
  shapeCasts_S1024x1x1024_S1024x1x16x1x2x32 : S1024x1x1024.ShapeCasts S1024x1x16x1x2x32
  bcast_S1x16x2x2x32_S1x1x16x2x2x32_1_2_3_4_5 : S1x16x2x2x32.BroadcastsInDim S1x1x16x2x2x32 (![1, 2, 3, 4, 5] : Fin 5 → Fin S1x1x16x2x2x32.rank)
  bcast_S1x1x16x2x2x32_S1024x1x16x2x2x32_0_1_2_3_4_5 : S1x1x16x2x2x32.BroadcastsInDim S1024x1x16x2x2x32 (![0, 1, 2, 3, 4, 5] : Fin 6 → Fin S1024x1x16x2x2x32.rank)
  bcast_S1024x1x16x1x2x32_S1024x1x16x2x2x32_0_1_2_3_4_5 : S1024x1x16x1x2x32.BroadcastsInDim S1024x1x16x2x2x32 (![0, 1, 2, 3, 4, 5] : Fin 6 → Fin S1024x1x16x2x2x32.rank)
  reducesTo_S1024x1x16x2x2x32_S1024x1x16x2x32_d4 : S1024x1x16x2x2x32.ReducesTo [4] S1024x1x16x2x32
  shapeCasts_S1024x1x16x2x32_S1024x1x1024 : S1024x1x16x2x32.ShapeCasts S1024x1x1024
  slices_S1x10x512x2x2_S1x1x512x2x2_0_6_0_0_0 : S1x10x512x2x2.Slices ![0, 6, 0, 0, 0] S1x1x512x2x2
  shapeCasts_S1x512x2x2_S1x8x64x2x2 : S1x512x2x2.ShapeCasts S1x8x64x2x2
  transposes_S1x8x64x2x2_S1x8x2x2x64_0_1_3_4_2 : S1x8x64x2x2.Transposes [0, 1, 3, 4, 2] S1x8x2x2x64
  shapeCasts_S1024x1x1024_S1024x1x8x1x2x64 : S1024x1x1024.ShapeCasts S1024x1x8x1x2x64
  bcast_S1x8x2x2x64_S1x1x8x2x2x64_1_2_3_4_5 : S1x8x2x2x64.BroadcastsInDim S1x1x8x2x2x64 (![1, 2, 3, 4, 5] : Fin 5 → Fin S1x1x8x2x2x64.rank)
  bcast_S1x1x8x2x2x64_S1024x1x8x2x2x64_0_1_2_3_4_5 : S1x1x8x2x2x64.BroadcastsInDim S1024x1x8x2x2x64 (![0, 1, 2, 3, 4, 5] : Fin 6 → Fin S1024x1x8x2x2x64.rank)
  bcast_S1024x1x8x1x2x64_S1024x1x8x2x2x64_0_1_2_3_4_5 : S1024x1x8x1x2x64.BroadcastsInDim S1024x1x8x2x2x64 (![0, 1, 2, 3, 4, 5] : Fin 6 → Fin S1024x1x8x2x2x64.rank)
  reducesTo_S1024x1x8x2x2x64_S1024x1x8x2x64_d4 : S1024x1x8x2x2x64.ReducesTo [4] S1024x1x8x2x64
  shapeCasts_S1024x1x8x2x64_S1024x1x1024 : S1024x1x8x2x64.ShapeCasts S1024x1x1024
  slices_S1x10x512x2x2_S1x1x512x2x2_0_7_0_0_0 : S1x10x512x2x2.Slices ![0, 7, 0, 0, 0] S1x1x512x2x2
  shapeCasts_S1x512x2x2_S1x4x128x2x2 : S1x512x2x2.ShapeCasts S1x4x128x2x2
  transposes_S1x4x128x2x2_S1x4x2x2x128_0_1_3_4_2 : S1x4x128x2x2.Transposes [0, 1, 3, 4, 2] S1x4x2x2x128
  shapeCasts_S1024x1x1024_S1024x1x4x1x2x128 : S1024x1x1024.ShapeCasts S1024x1x4x1x2x128
  bcast_S1x4x2x2x128_S1x1x4x2x2x128_1_2_3_4_5 : S1x4x2x2x128.BroadcastsInDim S1x1x4x2x2x128 (![1, 2, 3, 4, 5] : Fin 5 → Fin S1x1x4x2x2x128.rank)
  bcast_S1x1x4x2x2x128_S1024x1x4x2x2x128_0_1_2_3_4_5 : S1x1x4x2x2x128.BroadcastsInDim S1024x1x4x2x2x128 (![0, 1, 2, 3, 4, 5] : Fin 6 → Fin S1024x1x4x2x2x128.rank)
  bcast_S1024x1x4x1x2x128_S1024x1x4x2x2x128_0_1_2_3_4_5 : S1024x1x4x1x2x128.BroadcastsInDim S1024x1x4x2x2x128 (![0, 1, 2, 3, 4, 5] : Fin 6 → Fin S1024x1x4x2x2x128.rank)
  reducesTo_S1024x1x4x2x2x128_S1024x1x4x2x128_d4 : S1024x1x4x2x2x128.ReducesTo [4] S1024x1x4x2x128
  shapeCasts_S1024x1x4x2x128_S1024x1x1024 : S1024x1x4x2x128.ShapeCasts S1024x1x1024
  slices_S1x10x512x2x2_S1x1x512x2x2_0_8_0_0_0 : S1x10x512x2x2.Slices ![0, 8, 0, 0, 0] S1x1x512x2x2
  shapeCasts_S1x512x2x2_S1x2x256x2x2 : S1x512x2x2.ShapeCasts S1x2x256x2x2
  transposes_S1x2x256x2x2_S1x2x2x2x256_0_1_3_4_2 : S1x2x256x2x2.Transposes [0, 1, 3, 4, 2] S1x2x2x2x256
  shapeCasts_S1024x1x1024_S1024x1x2x1x2x256 : S1024x1x1024.ShapeCasts S1024x1x2x1x2x256
  bcast_S1x2x2x2x256_S1x1x2x2x2x256_1_2_3_4_5 : S1x2x2x2x256.BroadcastsInDim S1x1x2x2x2x256 (![1, 2, 3, 4, 5] : Fin 5 → Fin S1x1x2x2x2x256.rank)
  bcast_S1x1x2x2x2x256_S1024x1x2x2x2x256_0_1_2_3_4_5 : S1x1x2x2x2x256.BroadcastsInDim S1024x1x2x2x2x256 (![0, 1, 2, 3, 4, 5] : Fin 6 → Fin S1024x1x2x2x2x256.rank)
  bcast_S1024x1x2x1x2x256_S1024x1x2x2x2x256_0_1_2_3_4_5 : S1024x1x2x1x2x256.BroadcastsInDim S1024x1x2x2x2x256 (![0, 1, 2, 3, 4, 5] : Fin 6 → Fin S1024x1x2x2x2x256.rank)
  reducesTo_S1024x1x2x2x2x256_S1024x1x2x2x256_d4 : S1024x1x2x2x2x256.ReducesTo [4] S1024x1x2x2x256
  shapeCasts_S1024x1x2x2x256_S1024x1x1024 : S1024x1x2x2x256.ShapeCasts S1024x1x1024
  slices_S1x10x512x2x2_S1x1x512x2x2_0_9_0_0_0 : S1x10x512x2x2.Slices ![0, 9, 0, 0, 0] S1x1x512x2x2
  shapeCasts_S1x512x2x2_S1x1x512x2x2 : S1x512x2x2.ShapeCasts S1x1x512x2x2
  transposes_S1x1x512x2x2_S1x1x2x2x512_0_1_3_4_2 : S1x1x512x2x2.Transposes [0, 1, 3, 4, 2] S1x1x2x2x512
  shapeCasts_S1024x1x1024_S1024x1x1x1x2x512 : S1024x1x1024.ShapeCasts S1024x1x1x1x2x512
  bcast_S1x1x2x2x512_S1x1x1x2x2x512_1_2_3_4_5 : S1x1x2x2x512.BroadcastsInDim S1x1x1x2x2x512 (![1, 2, 3, 4, 5] : Fin 5 → Fin S1x1x1x2x2x512.rank)
  bcast_S1x1x1x2x2x512_S1024x1x1x2x2x512_0_1_2_3_4_5 : S1x1x1x2x2x512.BroadcastsInDim S1024x1x1x2x2x512 (![0, 1, 2, 3, 4, 5] : Fin 6 → Fin S1024x1x1x2x2x512.rank)
  bcast_S1024x1x1x1x2x512_S1024x1x1x2x2x512_0_1_2_3_4_5 : S1024x1x1x1x2x512.BroadcastsInDim S1024x1x1x2x2x512 (![0, 1, 2, 3, 4, 5] : Fin 6 → Fin S1024x1x1x2x2x512.rank)
  reducesTo_S1024x1x1x2x2x512_S1024x1x1x2x512_d4 : S1024x1x1x2x2x512.ReducesTo [4] S1024x1x1x2x512
  shapeCasts_S1024x1x1x2x512_S1024x1x1024 : S1024x1x1x2x512.ShapeCasts S1024x1x1024
  shapeCasts_S1024x1x1024_S1024x1024 : S1024x1x1024.ShapeCasts S1024x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S32768x1024.size a
  hwx0_3 : ∀ i : grid0.Coords, EltTy.bits .f32 = 32 ∨ (Rect.block (s := S32768x1024) S512x1024.size (cc0_transform_3 i) (hinb0_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v117) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v118) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v119) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1x10x512x2x2 : Shape := ⟨5, ![1, 10, 512, 2, 2]⟩
abbrev S1024 : Shape := ⟨1, ![1024]⟩
abbrev S32768x1x1024 : Shape := ⟨3, ![32768, 1, 1024]⟩
abbrev S1x1x512x2x2 : Shape := ⟨5, ![1, 1, 512, 2, 2]⟩
abbrev S1x512x2x2 : Shape := ⟨4, ![1, 512, 2, 2]⟩
abbrev S1x512x1x2x2 : Shape := ⟨5, ![1, 512, 1, 2, 2]⟩
abbrev S1x512x2x2x1 : Shape := ⟨5, ![1, 512, 2, 2, 1]⟩
abbrev S32768x1x512x1x2x1 : Shape := ⟨6, ![32768, 1, 512, 1, 2, 1]⟩
abbrev S1x1x512x2x2x1 : Shape := ⟨6, ![1, 1, 512, 2, 2, 1]⟩
abbrev S32768x1x512x2x2x1 : Shape := ⟨6, ![32768, 1, 512, 2, 2, 1]⟩
abbrev S_ : Shape := ⟨0, ![]⟩
abbrev S32768x1x512x2x1 : Shape := ⟨5, ![32768, 1, 512, 2, 1]⟩
abbrev S1x256x2x2x2 : Shape := ⟨5, ![1, 256, 2, 2, 2]⟩
abbrev S32768x1x256x1x2x2 : Shape := ⟨6, ![32768, 1, 256, 1, 2, 2]⟩
abbrev S1x1x256x2x2x2 : Shape := ⟨6, ![1, 1, 256, 2, 2, 2]⟩
abbrev S32768x1x256x2x2x2 : Shape := ⟨6, ![32768, 1, 256, 2, 2, 2]⟩
abbrev S32768x1x256x2x2 : Shape := ⟨5, ![32768, 1, 256, 2, 2]⟩
abbrev S1x128x4x2x2 : Shape := ⟨5, ![1, 128, 4, 2, 2]⟩
abbrev S1x128x2x2x4 : Shape := ⟨5, ![1, 128, 2, 2, 4]⟩
abbrev S32768x1x128x1x2x4 : Shape := ⟨6, ![32768, 1, 128, 1, 2, 4]⟩
abbrev S1x1x128x2x2x4 : Shape := ⟨6, ![1, 1, 128, 2, 2, 4]⟩
abbrev S32768x1x128x2x2x4 : Shape := ⟨6, ![32768, 1, 128, 2, 2, 4]⟩
abbrev S32768x1x128x2x4 : Shape := ⟨5, ![32768, 1, 128, 2, 4]⟩
abbrev S1x64x8x2x2 : Shape := ⟨5, ![1, 64, 8, 2, 2]⟩
abbrev S1x64x2x2x8 : Shape := ⟨5, ![1, 64, 2, 2, 8]⟩
abbrev S32768x1x64x1x2x8 : Shape := ⟨6, ![32768, 1, 64, 1, 2, 8]⟩
abbrev S1x1x64x2x2x8 : Shape := ⟨6, ![1, 1, 64, 2, 2, 8]⟩
abbrev S32768x1x64x2x2x8 : Shape := ⟨6, ![32768, 1, 64, 2, 2, 8]⟩
abbrev S32768x1x64x2x8 : Shape := ⟨5, ![32768, 1, 64, 2, 8]⟩
abbrev S1x32x16x2x2 : Shape := ⟨5, ![1, 32, 16, 2, 2]⟩
abbrev S1x32x2x2x16 : Shape := ⟨5, ![1, 32, 2, 2, 16]⟩
abbrev S32768x1x32x1x2x16 : Shape := ⟨6, ![32768, 1, 32, 1, 2, 16]⟩
abbrev S1x1x32x2x2x16 : Shape := ⟨6, ![1, 1, 32, 2, 2, 16]⟩
abbrev S32768x1x32x2x2x16 : Shape := ⟨6, ![32768, 1, 32, 2, 2, 16]⟩
abbrev S32768x1x32x2x16 : Shape := ⟨5, ![32768, 1, 32, 2, 16]⟩
abbrev S1x16x32x2x2 : Shape := ⟨5, ![1, 16, 32, 2, 2]⟩
abbrev S1x16x2x2x32 : Shape := ⟨5, ![1, 16, 2, 2, 32]⟩
abbrev S32768x1x16x1x2x32 : Shape := ⟨6, ![32768, 1, 16, 1, 2, 32]⟩
abbrev S1x1x16x2x2x32 : Shape := ⟨6, ![1, 1, 16, 2, 2, 32]⟩
abbrev S32768x1x16x2x2x32 : Shape := ⟨6, ![32768, 1, 16, 2, 2, 32]⟩
abbrev S32768x1x16x2x32 : Shape := ⟨5, ![32768, 1, 16, 2, 32]⟩
abbrev S1x8x64x2x2 : Shape := ⟨5, ![1, 8, 64, 2, 2]⟩
abbrev S1x8x2x2x64 : Shape := ⟨5, ![1, 8, 2, 2, 64]⟩
abbrev S32768x1x8x1x2x64 : Shape := ⟨6, ![32768, 1, 8, 1, 2, 64]⟩
abbrev S1x1x8x2x2x64 : Shape := ⟨6, ![1, 1, 8, 2, 2, 64]⟩
abbrev S32768x1x8x2x2x64 : Shape := ⟨6, ![32768, 1, 8, 2, 2, 64]⟩
abbrev S32768x1x8x2x64 : Shape := ⟨5, ![32768, 1, 8, 2, 64]⟩
abbrev S1x4x128x2x2 : Shape := ⟨5, ![1, 4, 128, 2, 2]⟩
abbrev S1x4x2x2x128 : Shape := ⟨5, ![1, 4, 2, 2, 128]⟩
abbrev S32768x1x4x1x2x128 : Shape := ⟨6, ![32768, 1, 4, 1, 2, 128]⟩
abbrev S1x1x4x2x2x128 : Shape := ⟨6, ![1, 1, 4, 2, 2, 128]⟩
abbrev S32768x1x4x2x2x128 : Shape := ⟨6, ![32768, 1, 4, 2, 2, 128]⟩
abbrev S32768x1x4x2x128 : Shape := ⟨5, ![32768, 1, 4, 2, 128]⟩
abbrev S1x2x256x2x2 : Shape := ⟨5, ![1, 2, 256, 2, 2]⟩
abbrev S1x2x2x2x256 : Shape := ⟨5, ![1, 2, 2, 2, 256]⟩
abbrev S32768x1x2x1x2x256 : Shape := ⟨6, ![32768, 1, 2, 1, 2, 256]⟩
abbrev S1x1x2x2x2x256 : Shape := ⟨6, ![1, 1, 2, 2, 2, 256]⟩
abbrev S32768x1x2x2x2x256 : Shape := ⟨6, ![32768, 1, 2, 2, 2, 256]⟩
abbrev S32768x1x2x2x256 : Shape := ⟨5, ![32768, 1, 2, 2, 256]⟩
abbrev S1x1x2x2x512 : Shape := ⟨5, ![1, 1, 2, 2, 512]⟩
abbrev S32768x1x1x1x2x512 : Shape := ⟨6, ![32768, 1, 1, 1, 2, 512]⟩
abbrev S1x1x1x2x2x512 : Shape := ⟨6, ![1, 1, 1, 2, 2, 512]⟩
abbrev S32768x1x1x2x2x512 : Shape := ⟨6, ![32768, 1, 1, 2, 2, 512]⟩
abbrev S32768x1x1x2x512 : Shape := ⟨5, ![32768, 1, 1, 2, 512]⟩
abbrev S1x1024 : Shape := ⟨2, ![1, 1024]⟩

abbrev nBuf : Space → Nat
  | .hbm => 128
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x10x512x2x2, .f32⟩
  | .hbm, ⟨2, _⟩ => ⟨S1024, .f32⟩
  | .hbm, ⟨3, _⟩ => ⟨S32768x1x1024, .f32⟩
  | .hbm, ⟨4, _⟩ => ⟨S1x1x512x2x2, .f32⟩
  | .hbm, ⟨5, _⟩ => ⟨S1x512x2x2, .f32⟩
  | .hbm, ⟨6, _⟩ => ⟨S1x512x1x2x2, .f32⟩
  | .hbm, ⟨7, _⟩ => ⟨S1x512x2x2x1, .f32⟩
  | .hbm, ⟨8, _⟩ => ⟨S32768x1x512x1x2x1, .f32⟩
  | .hbm, ⟨9, _⟩ => ⟨S1x1x512x2x2x1, .f32⟩
  | .hbm, ⟨10, _⟩ => ⟨S32768x1x512x2x2x1, .f32⟩
  | .hbm, ⟨11, _⟩ => ⟨S32768x1x512x2x2x1, .f32⟩
  | .hbm, ⟨12, _⟩ => ⟨S32768x1x512x2x2x1, .f32⟩
  | .hbm, ⟨13, _⟩ => ⟨S_, .f32⟩
  | .hbm, ⟨14, _⟩ => ⟨S32768x1x512x2x1, .f32⟩
  | .hbm, ⟨15, _⟩ => ⟨S32768x1x1024, .f32⟩
  | .hbm, ⟨16, _⟩ => ⟨S1x1x512x2x2, .f32⟩
  | .hbm, ⟨17, _⟩ => ⟨S1x512x2x2, .f32⟩
  | .hbm, ⟨18, _⟩ => ⟨S1x256x2x2x2, .f32⟩
  | .hbm, ⟨19, _⟩ => ⟨S1x256x2x2x2, .f32⟩
  | .hbm, ⟨20, _⟩ => ⟨S32768x1x256x1x2x2, .f32⟩
  | .hbm, ⟨21, _⟩ => ⟨S1x1x256x2x2x2, .f32⟩
  | .hbm, ⟨22, _⟩ => ⟨S32768x1x256x2x2x2, .f32⟩
  | .hbm, ⟨23, _⟩ => ⟨S32768x1x256x2x2x2, .f32⟩
  | .hbm, ⟨24, _⟩ => ⟨S32768x1x256x2x2x2, .f32⟩
  | .hbm, ⟨25, _⟩ => ⟨S_, .f32⟩
  | .hbm, ⟨26, _⟩ => ⟨S32768x1x256x2x2, .f32⟩
  | .hbm, ⟨27, _⟩ => ⟨S32768x1x1024, .f32⟩
  | .hbm, ⟨28, _⟩ => ⟨S1x1x512x2x2, .f32⟩
  | .hbm, ⟨29, _⟩ => ⟨S1x512x2x2, .f32⟩
  | .hbm, ⟨30, _⟩ => ⟨S1x128x4x2x2, .f32⟩
  | .hbm, ⟨31, _⟩ => ⟨S1x128x2x2x4, .f32⟩
  | .hbm, ⟨32, _⟩ => ⟨S32768x1x128x1x2x4, .f32⟩
  | .hbm, ⟨33, _⟩ => ⟨S1x1x128x2x2x4, .f32⟩
  | .hbm, ⟨34, _⟩ => ⟨S32768x1x128x2x2x4, .f32⟩
  | .hbm, ⟨35, _⟩ => ⟨S32768x1x128x2x2x4, .f32⟩
  | .hbm, ⟨36, _⟩ => ⟨S32768x1x128x2x2x4, .f32⟩
  | .hbm, ⟨37, _⟩ => ⟨S_, .f32⟩
  | .hbm, ⟨38, _⟩ => ⟨S32768x1x128x2x4, .f32⟩
  | .hbm, ⟨39, _⟩ => ⟨S32768x1x1024, .f32⟩
  | .hbm, ⟨40, _⟩ => ⟨S1x1x512x2x2, .f32⟩
  | .hbm, ⟨41, _⟩ => ⟨S1x512x2x2, .f32⟩
  | .hbm, ⟨42, _⟩ => ⟨S1x64x8x2x2, .f32⟩
  | .hbm, ⟨43, _⟩ => ⟨S1x64x2x2x8, .f32⟩
  | .hbm, ⟨44, _⟩ => ⟨S32768x1x64x1x2x8, .f32⟩
  | .hbm, ⟨45, _⟩ => ⟨S1x1x64x2x2x8, .f32⟩
  | .hbm, ⟨46, _⟩ => ⟨S32768x1x64x2x2x8, .f32⟩
  | .hbm, ⟨47, _⟩ => ⟨S32768x1x64x2x2x8, .f32⟩
  | .hbm, ⟨48, _⟩ => ⟨S32768x1x64x2x2x8, .f32⟩
  | .hbm, ⟨49, _⟩ => ⟨S_, .f32⟩
  | .hbm, ⟨50, _⟩ => ⟨S32768x1x64x2x8, .f32⟩
  | .hbm, ⟨51, _⟩ => ⟨S32768x1x1024, .f32⟩
  | .hbm, ⟨52, _⟩ => ⟨S1x1x512x2x2, .f32⟩
  | .hbm, ⟨53, _⟩ => ⟨S1x512x2x2, .f32⟩
  | .hbm, ⟨54, _⟩ => ⟨S1x32x16x2x2, .f32⟩
  | .hbm, ⟨55, _⟩ => ⟨S1x32x2x2x16, .f32⟩
  | .hbm, ⟨56, _⟩ => ⟨S32768x1x32x1x2x16, .f32⟩
  | .hbm, ⟨57, _⟩ => ⟨S1x1x32x2x2x16, .f32⟩
  | .hbm, ⟨58, _⟩ => ⟨S32768x1x32x2x2x16, .f32⟩
  | .hbm, ⟨59, _⟩ => ⟨S32768x1x32x2x2x16, .f32⟩
  | .hbm, ⟨60, _⟩ => ⟨S32768x1x32x2x2x16, .f32⟩
  | .hbm, ⟨61, _⟩ => ⟨S_, .f32⟩
  | .hbm, ⟨62, _⟩ => ⟨S32768x1x32x2x16, .f32⟩
  | .hbm, ⟨63, _⟩ => ⟨S32768x1x1024, .f32⟩
  | .hbm, ⟨64, _⟩ => ⟨S1x1x512x2x2, .f32⟩
  | .hbm, ⟨65, _⟩ => ⟨S1x512x2x2, .f32⟩
  | .hbm, ⟨66, _⟩ => ⟨S1x16x32x2x2, .f32⟩
  | .hbm, ⟨67, _⟩ => ⟨S1x16x2x2x32, .f32⟩
  | .hbm, ⟨68, _⟩ => ⟨S32768x1x16x1x2x32, .f32⟩
  | .hbm, ⟨69, _⟩ => ⟨S1x1x16x2x2x32, .f32⟩
  | .hbm, ⟨70, _⟩ => ⟨S32768x1x16x2x2x32, .f32⟩
  | .hbm, ⟨71, _⟩ => ⟨S32768x1x16x2x2x32, .f32⟩
  | .hbm, ⟨72, _⟩ => ⟨S32768x1x16x2x2x32, .f32⟩
  | .hbm, ⟨73, _⟩ => ⟨S_, .f32⟩
  | .hbm, ⟨74, _⟩ => ⟨S32768x1x16x2x32, .f32⟩
  | .hbm, ⟨75, _⟩ => ⟨S32768x1x1024, .f32⟩
  | .hbm, ⟨76, _⟩ => ⟨S1x1x512x2x2, .f32⟩
  | .hbm, ⟨77, _⟩ => ⟨S1x512x2x2, .f32⟩
  | .hbm, ⟨78, _⟩ => ⟨S1x8x64x2x2, .f32⟩
  | .hbm, ⟨79, _⟩ => ⟨S1x8x2x2x64, .f32⟩
  | .hbm, ⟨80, _⟩ => ⟨S32768x1x8x1x2x64, .f32⟩
  | .hbm, ⟨81, _⟩ => ⟨S1x1x8x2x2x64, .f32⟩
  | .hbm, ⟨82, _⟩ => ⟨S32768x1x8x2x2x64, .f32⟩
  | .hbm, ⟨83, _⟩ => ⟨S32768x1x8x2x2x64, .f32⟩
  | .hbm, ⟨84, _⟩ => ⟨S32768x1x8x2x2x64, .f32⟩
  | .hbm, ⟨85, _⟩ => ⟨S_, .f32⟩
  | .hbm, ⟨86, _⟩ => ⟨S32768x1x8x2x64, .f32⟩
  | .hbm, ⟨87, _⟩ => ⟨S32768x1x1024, .f32⟩
  | .hbm, ⟨88, _⟩ => ⟨S1x1x512x2x2, .f32⟩
  | .hbm, ⟨89, _⟩ => ⟨S1x512x2x2, .f32⟩
  | .hbm, ⟨90, _⟩ => ⟨S1x4x128x2x2, .f32⟩
  | .hbm, ⟨91, _⟩ => ⟨S1x4x2x2x128, .f32⟩
  | .hbm, ⟨92, _⟩ => ⟨S32768x1x4x1x2x128, .f32⟩
  | .hbm, ⟨93, _⟩ => ⟨S1x1x4x2x2x128, .f32⟩
  | .hbm, ⟨94, _⟩ => ⟨S32768x1x4x2x2x128, .f32⟩
  | .hbm, ⟨95, _⟩ => ⟨S32768x1x4x2x2x128, .f32⟩
  | .hbm, ⟨96, _⟩ => ⟨S32768x1x4x2x2x128, .f32⟩
  | .hbm, ⟨97, _⟩ => ⟨S_, .f32⟩
  | .hbm, ⟨98, _⟩ => ⟨S32768x1x4x2x128, .f32⟩
  | .hbm, ⟨99, _⟩ => ⟨S32768x1x1024, .f32⟩
  | .hbm, ⟨100, _⟩ => ⟨S1x1x512x2x2, .f32⟩
  | .hbm, ⟨101, _⟩ => ⟨S1x512x2x2, .f32⟩
  | .hbm, ⟨102, _⟩ => ⟨S1x2x256x2x2, .f32⟩
  | .hbm, ⟨103, _⟩ => ⟨S1x2x2x2x256, .f32⟩
  | .hbm, ⟨104, _⟩ => ⟨S32768x1x2x1x2x256, .f32⟩
  | .hbm, ⟨105, _⟩ => ⟨S1x1x2x2x2x256, .f32⟩
  | .hbm, ⟨106, _⟩ => ⟨S32768x1x2x2x2x256, .f32⟩
  | .hbm, ⟨107, _⟩ => ⟨S32768x1x2x2x2x256, .f32⟩
  | .hbm, ⟨108, _⟩ => ⟨S32768x1x2x2x2x256, .f32⟩
  | .hbm, ⟨109, _⟩ => ⟨S_, .f32⟩
  | .hbm, ⟨110, _⟩ => ⟨S32768x1x2x2x256, .f32⟩
  | .hbm, ⟨111, _⟩ => ⟨S32768x1x1024, .f32⟩
  | .hbm, ⟨112, _⟩ => ⟨S1x1x512x2x2, .f32⟩
  | .hbm, ⟨113, _⟩ => ⟨S1x512x2x2, .f32⟩
  | .hbm, ⟨114, _⟩ => ⟨S1x1x512x2x2, .f32⟩
  | .hbm, ⟨115, _⟩ => ⟨S1x1x2x2x512, .f32⟩
  | .hbm, ⟨116, _⟩ => ⟨S32768x1x1x1x2x512, .f32⟩
  | .hbm, ⟨117, _⟩ => ⟨S1x1x1x2x2x512, .f32⟩
  | .hbm, ⟨118, _⟩ => ⟨S32768x1x1x2x2x512, .f32⟩
  | .hbm, ⟨119, _⟩ => ⟨S32768x1x1x2x2x512, .f32⟩
  | .hbm, ⟨120, _⟩ => ⟨S32768x1x1x2x2x512, .f32⟩
  | .hbm, ⟨121, _⟩ => ⟨S_, .f32⟩
  | .hbm, ⟨122, _⟩ => ⟨S32768x1x1x2x512, .f32⟩
  | .hbm, ⟨123, _⟩ => ⟨S32768x1x1024, .f32⟩
  | .hbm, ⟨124, _⟩ => ⟨S32768x1024, .f32⟩
  | .hbm, ⟨125, _⟩ => ⟨S1x1024, .f32⟩
  | .hbm, ⟨126, _⟩ => ⟨S32768x1024, .f32⟩
  | .hbm, ⟨127, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_cst_2 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_cst_3 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_cst_4 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_cst_5 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_cst_6 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_cst_7 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_cst_8 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩

abbrev nD : Nat := 1
abbrev τ : Topo := Topo.v7x

variable {F : FTy → Type} [FloatOps F]

class Facts₀ : Prop where
  bcast_S32768x1024_S32768x1x1024_0_2 : S32768x1024.BroadcastsInDim S32768x1x1024 (![0, 2] : Fin 2 → Fin S32768x1x1024.rank)
  slices_S1x10x512x2x2_S1x1x512x2x2_0_0_0_0_0 : S1x10x512x2x2.Slices ![0, 0, 0, 0, 0] S1x1x512x2x2
  shapeCasts_S1x1x512x2x2_S1x512x2x2 : S1x1x512x2x2.ShapeCasts S1x512x2x2
  shapeCasts_S1x512x2x2_S1x512x1x2x2 : S1x512x2x2.ShapeCasts S1x512x1x2x2
  transposes_S1x512x1x2x2_S1x512x2x2x1_0_1_3_4_2 : S1x512x1x2x2.Transposes [0, 1, 3, 4, 2] S1x512x2x2x1
  shapeCasts_S32768x1x1024_S32768x1x512x1x2x1 : S32768x1x1024.ShapeCasts S32768x1x512x1x2x1
  bcast_S1x512x2x2x1_S1x1x512x2x2x1_1_2_3_4_5 : S1x512x2x2x1.BroadcastsInDim S1x1x512x2x2x1 (![1, 2, 3, 4, 5] : Fin 5 → Fin S1x1x512x2x2x1.rank)
  bcast_S1x1x512x2x2x1_S32768x1x512x2x2x1_0_1_2_3_4_5 : S1x1x512x2x2x1.BroadcastsInDim S32768x1x512x2x2x1 (![0, 1, 2, 3, 4, 5] : Fin 6 → Fin S32768x1x512x2x2x1.rank)
  bcast_S32768x1x512x1x2x1_S32768x1x512x2x2x1_0_1_2_3_4_5 : S32768x1x512x1x2x1.BroadcastsInDim S32768x1x512x2x2x1 (![0, 1, 2, 3, 4, 5] : Fin 6 → Fin S32768x1x512x2x2x1.rank)
  reducesTo_S32768x1x512x2x2x1_S32768x1x512x2x1_d4 : S32768x1x512x2x2x1.ReducesTo [4] S32768x1x512x2x1
  h_S_ : 0 < S_.numel
  shapeCasts_S32768x1x512x2x1_S32768x1x1024 : S32768x1x512x2x1.ShapeCasts S32768x1x1024
  slices_S1x10x512x2x2_S1x1x512x2x2_0_1_0_0_0 : S1x10x512x2x2.Slices ![0, 1, 0, 0, 0] S1x1x512x2x2
  shapeCasts_S1x512x2x2_S1x256x2x2x2 : S1x512x2x2.ShapeCasts S1x256x2x2x2
  transposes_S1x256x2x2x2_S1x256x2x2x2_0_1_3_4_2 : S1x256x2x2x2.Transposes [0, 1, 3, 4, 2] S1x256x2x2x2
  shapeCasts_S32768x1x1024_S32768x1x256x1x2x2 : S32768x1x1024.ShapeCasts S32768x1x256x1x2x2
  bcast_S1x256x2x2x2_S1x1x256x2x2x2_1_2_3_4_5 : S1x256x2x2x2.BroadcastsInDim S1x1x256x2x2x2 (![1, 2, 3, 4, 5] : Fin 5 → Fin S1x1x256x2x2x2.rank)
  bcast_S1x1x256x2x2x2_S32768x1x256x2x2x2_0_1_2_3_4_5 : S1x1x256x2x2x2.BroadcastsInDim S32768x1x256x2x2x2 (![0, 1, 2, 3, 4, 5] : Fin 6 → Fin S32768x1x256x2x2x2.rank)
  bcast_S32768x1x256x1x2x2_S32768x1x256x2x2x2_0_1_2_3_4_5 : S32768x1x256x1x2x2.BroadcastsInDim S32768x1x256x2x2x2 (![0, 1, 2, 3, 4, 5] : Fin 6 → Fin S32768x1x256x2x2x2.rank)
  reducesTo_S32768x1x256x2x2x2_S32768x1x256x2x2_d4 : S32768x1x256x2x2x2.ReducesTo [4] S32768x1x256x2x2
  shapeCasts_S32768x1x256x2x2_S32768x1x1024 : S32768x1x256x2x2.ShapeCasts S32768x1x1024
  slices_S1x10x512x2x2_S1x1x512x2x2_0_2_0_0_0 : S1x10x512x2x2.Slices ![0, 2, 0, 0, 0] S1x1x512x2x2
  shapeCasts_S1x512x2x2_S1x128x4x2x2 : S1x512x2x2.ShapeCasts S1x128x4x2x2
  transposes_S1x128x4x2x2_S1x128x2x2x4_0_1_3_4_2 : S1x128x4x2x2.Transposes [0, 1, 3, 4, 2] S1x128x2x2x4
  shapeCasts_S32768x1x1024_S32768x1x128x1x2x4 : S32768x1x1024.ShapeCasts S32768x1x128x1x2x4
  bcast_S1x128x2x2x4_S1x1x128x2x2x4_1_2_3_4_5 : S1x128x2x2x4.BroadcastsInDim S1x1x128x2x2x4 (![1, 2, 3, 4, 5] : Fin 5 → Fin S1x1x128x2x2x4.rank)
  bcast_S1x1x128x2x2x4_S32768x1x128x2x2x4_0_1_2_3_4_5 : S1x1x128x2x2x4.BroadcastsInDim S32768x1x128x2x2x4 (![0, 1, 2, 3, 4, 5] : Fin 6 → Fin S32768x1x128x2x2x4.rank)
  bcast_S32768x1x128x1x2x4_S32768x1x128x2x2x4_0_1_2_3_4_5 : S32768x1x128x1x2x4.BroadcastsInDim S32768x1x128x2x2x4 (![0, 1, 2, 3, 4, 5] : Fin 6 → Fin S32768x1x128x2x2x4.rank)
  reducesTo_S32768x1x128x2x2x4_S32768x1x128x2x4_d4 : S32768x1x128x2x2x4.ReducesTo [4] S32768x1x128x2x4
  shapeCasts_S32768x1x128x2x4_S32768x1x1024 : S32768x1x128x2x4.ShapeCasts S32768x1x1024
  slices_S1x10x512x2x2_S1x1x512x2x2_0_3_0_0_0 : S1x10x512x2x2.Slices ![0, 3, 0, 0, 0] S1x1x512x2x2
  shapeCasts_S1x512x2x2_S1x64x8x2x2 : S1x512x2x2.ShapeCasts S1x64x8x2x2
  transposes_S1x64x8x2x2_S1x64x2x2x8_0_1_3_4_2 : S1x64x8x2x2.Transposes [0, 1, 3, 4, 2] S1x64x2x2x8
  shapeCasts_S32768x1x1024_S32768x1x64x1x2x8 : S32768x1x1024.ShapeCasts S32768x1x64x1x2x8
  bcast_S1x64x2x2x8_S1x1x64x2x2x8_1_2_3_4_5 : S1x64x2x2x8.BroadcastsInDim S1x1x64x2x2x8 (![1, 2, 3, 4, 5] : Fin 5 → Fin S1x1x64x2x2x8.rank)
  bcast_S1x1x64x2x2x8_S32768x1x64x2x2x8_0_1_2_3_4_5 : S1x1x64x2x2x8.BroadcastsInDim S32768x1x64x2x2x8 (![0, 1, 2, 3, 4, 5] : Fin 6 → Fin S32768x1x64x2x2x8.rank)
  bcast_S32768x1x64x1x2x8_S32768x1x64x2x2x8_0_1_2_3_4_5 : S32768x1x64x1x2x8.BroadcastsInDim S32768x1x64x2x2x8 (![0, 1, 2, 3, 4, 5] : Fin 6 → Fin S32768x1x64x2x2x8.rank)
  reducesTo_S32768x1x64x2x2x8_S32768x1x64x2x8_d4 : S32768x1x64x2x2x8.ReducesTo [4] S32768x1x64x2x8
  shapeCasts_S32768x1x64x2x8_S32768x1x1024 : S32768x1x64x2x8.ShapeCasts S32768x1x1024
  slices_S1x10x512x2x2_S1x1x512x2x2_0_4_0_0_0 : S1x10x512x2x2.Slices ![0, 4, 0, 0, 0] S1x1x512x2x2
  shapeCasts_S1x512x2x2_S1x32x16x2x2 : S1x512x2x2.ShapeCasts S1x32x16x2x2
  transposes_S1x32x16x2x2_S1x32x2x2x16_0_1_3_4_2 : S1x32x16x2x2.Transposes [0, 1, 3, 4, 2] S1x32x2x2x16
  shapeCasts_S32768x1x1024_S32768x1x32x1x2x16 : S32768x1x1024.ShapeCasts S32768x1x32x1x2x16
  bcast_S1x32x2x2x16_S1x1x32x2x2x16_1_2_3_4_5 : S1x32x2x2x16.BroadcastsInDim S1x1x32x2x2x16 (![1, 2, 3, 4, 5] : Fin 5 → Fin S1x1x32x2x2x16.rank)
  bcast_S1x1x32x2x2x16_S32768x1x32x2x2x16_0_1_2_3_4_5 : S1x1x32x2x2x16.BroadcastsInDim S32768x1x32x2x2x16 (![0, 1, 2, 3, 4, 5] : Fin 6 → Fin S32768x1x32x2x2x16.rank)
  bcast_S32768x1x32x1x2x16_S32768x1x32x2x2x16_0_1_2_3_4_5 : S32768x1x32x1x2x16.BroadcastsInDim S32768x1x32x2x2x16 (![0, 1, 2, 3, 4, 5] : Fin 6 → Fin S32768x1x32x2x2x16.rank)
  reducesTo_S32768x1x32x2x2x16_S32768x1x32x2x16_d4 : S32768x1x32x2x2x16.ReducesTo [4] S32768x1x32x2x16
  shapeCasts_S32768x1x32x2x16_S32768x1x1024 : S32768x1x32x2x16.ShapeCasts S32768x1x1024
  slices_S1x10x512x2x2_S1x1x512x2x2_0_5_0_0_0 : S1x10x512x2x2.Slices ![0, 5, 0, 0, 0] S1x1x512x2x2
  shapeCasts_S1x512x2x2_S1x16x32x2x2 : S1x512x2x2.ShapeCasts S1x16x32x2x2
  transposes_S1x16x32x2x2_S1x16x2x2x32_0_1_3_4_2 : S1x16x32x2x2.Transposes [0, 1, 3, 4, 2] S1x16x2x2x32
  shapeCasts_S32768x1x1024_S32768x1x16x1x2x32 : S32768x1x1024.ShapeCasts S32768x1x16x1x2x32
  bcast_S1x16x2x2x32_S1x1x16x2x2x32_1_2_3_4_5 : S1x16x2x2x32.BroadcastsInDim S1x1x16x2x2x32 (![1, 2, 3, 4, 5] : Fin 5 → Fin S1x1x16x2x2x32.rank)
  bcast_S1x1x16x2x2x32_S32768x1x16x2x2x32_0_1_2_3_4_5 : S1x1x16x2x2x32.BroadcastsInDim S32768x1x16x2x2x32 (![0, 1, 2, 3, 4, 5] : Fin 6 → Fin S32768x1x16x2x2x32.rank)
  bcast_S32768x1x16x1x2x32_S32768x1x16x2x2x32_0_1_2_3_4_5 : S32768x1x16x1x2x32.BroadcastsInDim S32768x1x16x2x2x32 (![0, 1, 2, 3, 4, 5] : Fin 6 → Fin S32768x1x16x2x2x32.rank)
  reducesTo_S32768x1x16x2x2x32_S32768x1x16x2x32_d4 : S32768x1x16x2x2x32.ReducesTo [4] S32768x1x16x2x32
  shapeCasts_S32768x1x16x2x32_S32768x1x1024 : S32768x1x16x2x32.ShapeCasts S32768x1x1024
  slices_S1x10x512x2x2_S1x1x512x2x2_0_6_0_0_0 : S1x10x512x2x2.Slices ![0, 6, 0, 0, 0] S1x1x512x2x2
  shapeCasts_S1x512x2x2_S1x8x64x2x2 : S1x512x2x2.ShapeCasts S1x8x64x2x2
  transposes_S1x8x64x2x2_S1x8x2x2x64_0_1_3_4_2 : S1x8x64x2x2.Transposes [0, 1, 3, 4, 2] S1x8x2x2x64
  shapeCasts_S32768x1x1024_S32768x1x8x1x2x64 : S32768x1x1024.ShapeCasts S32768x1x8x1x2x64
  bcast_S1x8x2x2x64_S1x1x8x2x2x64_1_2_3_4_5 : S1x8x2x2x64.BroadcastsInDim S1x1x8x2x2x64 (![1, 2, 3, 4, 5] : Fin 5 → Fin S1x1x8x2x2x64.rank)
  bcast_S1x1x8x2x2x64_S32768x1x8x2x2x64_0_1_2_3_4_5 : S1x1x8x2x2x64.BroadcastsInDim S32768x1x8x2x2x64 (![0, 1, 2, 3, 4, 5] : Fin 6 → Fin S32768x1x8x2x2x64.rank)
  bcast_S32768x1x8x1x2x64_S32768x1x8x2x2x64_0_1_2_3_4_5 : S32768x1x8x1x2x64.BroadcastsInDim S32768x1x8x2x2x64 (![0, 1, 2, 3, 4, 5] : Fin 6 → Fin S32768x1x8x2x2x64.rank)
  reducesTo_S32768x1x8x2x2x64_S32768x1x8x2x64_d4 : S32768x1x8x2x2x64.ReducesTo [4] S32768x1x8x2x64
  shapeCasts_S32768x1x8x2x64_S32768x1x1024 : S32768x1x8x2x64.ShapeCasts S32768x1x1024
  slices_S1x10x512x2x2_S1x1x512x2x2_0_7_0_0_0 : S1x10x512x2x2.Slices ![0, 7, 0, 0, 0] S1x1x512x2x2
  shapeCasts_S1x512x2x2_S1x4x128x2x2 : S1x512x2x2.ShapeCasts S1x4x128x2x2
  transposes_S1x4x128x2x2_S1x4x2x2x128_0_1_3_4_2 : S1x4x128x2x2.Transposes [0, 1, 3, 4, 2] S1x4x2x2x128
  shapeCasts_S32768x1x1024_S32768x1x4x1x2x128 : S32768x1x1024.ShapeCasts S32768x1x4x1x2x128
  bcast_S1x4x2x2x128_S1x1x4x2x2x128_1_2_3_4_5 : S1x4x2x2x128.BroadcastsInDim S1x1x4x2x2x128 (![1, 2, 3, 4, 5] : Fin 5 → Fin S1x1x4x2x2x128.rank)
  bcast_S1x1x4x2x2x128_S32768x1x4x2x2x128_0_1_2_3_4_5 : S1x1x4x2x2x128.BroadcastsInDim S32768x1x4x2x2x128 (![0, 1, 2, 3, 4, 5] : Fin 6 → Fin S32768x1x4x2x2x128.rank)
  bcast_S32768x1x4x1x2x128_S32768x1x4x2x2x128_0_1_2_3_4_5 : S32768x1x4x1x2x128.BroadcastsInDim S32768x1x4x2x2x128 (![0, 1, 2, 3, 4, 5] : Fin 6 → Fin S32768x1x4x2x2x128.rank)
  reducesTo_S32768x1x4x2x2x128_S32768x1x4x2x128_d4 : S32768x1x4x2x2x128.ReducesTo [4] S32768x1x4x2x128
  shapeCasts_S32768x1x4x2x128_S32768x1x1024 : S32768x1x4x2x128.ShapeCasts S32768x1x1024
  slices_S1x10x512x2x2_S1x1x512x2x2_0_8_0_0_0 : S1x10x512x2x2.Slices ![0, 8, 0, 0, 0] S1x1x512x2x2
  shapeCasts_S1x512x2x2_S1x2x256x2x2 : S1x512x2x2.ShapeCasts S1x2x256x2x2
  transposes_S1x2x256x2x2_S1x2x2x2x256_0_1_3_4_2 : S1x2x256x2x2.Transposes [0, 1, 3, 4, 2] S1x2x2x2x256
  shapeCasts_S32768x1x1024_S32768x1x2x1x2x256 : S32768x1x1024.ShapeCasts S32768x1x2x1x2x256
  bcast_S1x2x2x2x256_S1x1x2x2x2x256_1_2_3_4_5 : S1x2x2x2x256.BroadcastsInDim S1x1x2x2x2x256 (![1, 2, 3, 4, 5] : Fin 5 → Fin S1x1x2x2x2x256.rank)
  bcast_S1x1x2x2x2x256_S32768x1x2x2x2x256_0_1_2_3_4_5 : S1x1x2x2x2x256.BroadcastsInDim S32768x1x2x2x2x256 (![0, 1, 2, 3, 4, 5] : Fin 6 → Fin S32768x1x2x2x2x256.rank)
  bcast_S32768x1x2x1x2x256_S32768x1x2x2x2x256_0_1_2_3_4_5 : S32768x1x2x1x2x256.BroadcastsInDim S32768x1x2x2x2x256 (![0, 1, 2, 3, 4, 5] : Fin 6 → Fin S32768x1x2x2x2x256.rank)
  reducesTo_S32768x1x2x2x2x256_S32768x1x2x2x256_d4 : S32768x1x2x2x2x256.ReducesTo [4] S32768x1x2x2x256
  shapeCasts_S32768x1x2x2x256_S32768x1x1024 : S32768x1x2x2x256.ShapeCasts S32768x1x1024
  slices_S1x10x512x2x2_S1x1x512x2x2_0_9_0_0_0 : S1x10x512x2x2.Slices ![0, 9, 0, 0, 0] S1x1x512x2x2
  shapeCasts_S1x512x2x2_S1x1x512x2x2 : S1x512x2x2.ShapeCasts S1x1x512x2x2
  transposes_S1x1x512x2x2_S1x1x2x2x512_0_1_3_4_2 : S1x1x512x2x2.Transposes [0, 1, 3, 4, 2] S1x1x2x2x512
  shapeCasts_S32768x1x1024_S32768x1x1x1x2x512 : S32768x1x1024.ShapeCasts S32768x1x1x1x2x512
  bcast_S1x1x2x2x512_S1x1x1x2x2x512_1_2_3_4_5 : S1x1x2x2x512.BroadcastsInDim S1x1x1x2x2x512 (![1, 2, 3, 4, 5] : Fin 5 → Fin S1x1x1x2x2x512.rank)
  bcast_S1x1x1x2x2x512_S32768x1x1x2x2x512_0_1_2_3_4_5 : S1x1x1x2x2x512.BroadcastsInDim S32768x1x1x2x2x512 (![0, 1, 2, 3, 4, 5] : Fin 6 → Fin S32768x1x1x2x2x512.rank)
  bcast_S32768x1x1x1x2x512_S32768x1x1x2x2x512_0_1_2_3_4_5 : S32768x1x1x1x2x512.BroadcastsInDim S32768x1x1x2x2x512 (![0, 1, 2, 3, 4, 5] : Fin 6 → Fin S32768x1x1x2x2x512.rank)
  reducesTo_S32768x1x1x2x2x512_S32768x1x1x2x512_d4 : S32768x1x1x2x2x512.ReducesTo [4] S32768x1x1x2x512
  shapeCasts_S32768x1x1x2x512_S32768x1x1024 : S32768x1x1x2x512.ShapeCasts S32768x1x1024
  shapeCasts_S32768x1x1024_S32768x1024 : S32768x1x1024.ShapeCasts S32768x1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)

variable [Facts₀]

class Facts : Prop extends Facts₀ where

variable [Facts]
-- ==== Proof.FiniteInputs.lean ====
/-
  From the precondition to real entries.

  The precondition is the conjunction, over the three argument arrays, of "every entry has absolute
  value below +∞". An extended real whose absolute value is below +∞ is neither infinity, hence a
  real number; so under the precondition every entry of every argument array is a real.
-/
import proofs.«124131_j34359738515_2_alg».proof.Defs
import Idealize.ShloMosaic.Lib.ReduceAll
import Idealize.ShloMosaic.Lib.IdealHost

namespace Cert.KernelIdeal.Finite

open Idealize.ShloMosaic Idealize.SL.Sem

/-- A shape of rank zero has one index. -/
instance : Subsingleton Cert.Pre_finite_inputs.S_.Idx := ⟨fun _ _ => funext fun d => d.elim0⟩

/-- The f32 pattern with all exponent bits set and no fraction bit is +∞. -/
theorem ofBits_inf : Ideal.ofBits .f32 0x7F800000#32 = (⊤ : EReal) := by
  simp [Ideal.ofBits, Ideal.ieee]

/-- An extended real whose absolute value is below +∞ is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- One entry's test, read back: the comparison bit of `|x| < +∞` being set makes `x` real. -/
theorem real_of_bit (x : EReal)
    (h : Ideal.cmp .olt (max x (-x)) (Ideal.ofBits .f32 0x7F800000#32) = 1#1) : ∃ r : ℝ, x = (r : EReal) := by
  rw [ofBits_inf] at h
  apply real_of_abs_lt_top
  by_contra hn
  simp [Ideal.cmp, hn] at h

/-- One `all(|x| < +∞)` over an array, read back: if the reduction by `and` is set, every entry is real. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (e : Host.reduce IntOp.andi
        (cmpf .olt (Host.absf x) (broadcastInDim s ![] hb (constant Cert.Pre_finite_inputs.S_ .f32 0x7F800000#32)))
        (constantI Cert.Pre_finite_inputs.S_ 1 1#1) hr h0 ValueIdx.ix0 = 1#1)
    (i : s.Idx) : ∃ r : ℝ, x i = (r : EReal) := by
  have hi := Host.reduce_andi_all _ _ hr h0 ValueIdx.ix0 e i
  have hbc : broadcastInDim s ![] hb (constant (F := Ideal) Cert.Pre_finite_inputs.S_ .f32 0x7F800000#32) i
      = Ideal.ofBits .f32 0x7F800000#32 := ValueIdx.broadcastInDim_scalar_apply hb _ _
  have hi' : Ideal.cmp .olt (max (x i) (-(x i)))
      (broadcastInDim s ![] hb (constant (F := Ideal) Cert.Pre_finite_inputs.S_ .f32 0x7F800000#32) i) = 1#1 := hi
  rw [hbc] at hi'
  exact real_of_bit (x i) hi'

variable [hP : Cert.Pre_finite_inputs.Facts]

/-- Under the precondition every entry of each of the three argument arrays is a real number. -/
theorem real_args (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal)) := by
  have h1 := congrFun (h c) ValueIdx.ix0
  dsimp only [Cert.Pre_finite_inputs.fn] at h1
  change IntOp.andi (IntOp.andi _ _) _ = 1#1 at h1
  obtain ⟨h12, h3⟩ := IntOp.andi_eq_one.1 h1
  obtain ⟨h1', h2'⟩ := IntOp.andi_eq_one.1 h12
  exact ⟨fun i => real_of_all _ _ _ _ h1' i, fun i => real_of_all _ _ _ _ h2' i,
    fun i => real_of_all _ _ _ _ h3 i⟩

/-- The first argument's entries, at an index of its literal shape. -/
theorem real_arg0 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S32768x1024.Idx) :
    ∃ r : ℝ, (m ((c.tc : Thread Cert.KernelIdeal.nD Cert.KernelIdeal.τ).loc Cert.KernelIdeal.main_arg0)
      : FVec Ideal Cert.KernelIdeal.S32768x1024 .f32) i = (r : EReal) := (real_args m h c).1 i

/-- The second argument's entries, at an index of its literal shape. -/
theorem real_arg1 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S1x10x512x2x2.Idx) :
    ∃ r : ℝ, (m ((c.tc : Thread Cert.KernelIdeal.nD Cert.KernelIdeal.τ).loc Cert.KernelIdeal.main_arg1)
      : FVec Ideal Cert.KernelIdeal.S1x10x512x2x2 .f32) i = (r : EReal) := (real_args m h c).2.1 i

/-- The third argument's entries, at an index of its literal shape. -/
theorem real_arg2 (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S1024.Idx) :
    ∃ r : ℝ, (m ((c.tc : Thread Cert.KernelIdeal.nD Cert.KernelIdeal.τ).loc Cert.KernelIdeal.main_arg2)
      : FVec Ideal Cert.KernelIdeal.S1024 .f32) i = (r : EReal) := (real_args m h c).2.2 i

end Cert.KernelIdeal.Finite
-- ==== Proof.LibLinearNetwork.lean ====
/-
  A network of sparse linear stages acts on a row as the row times the network's matrix.

  A *stage* sends a row `v : Fin n → EReal` to the row whose entry `j` is `z + ∑ e, c j e * v (p j e)`: a fixed
  finite number of taps `e`, each with a real coefficient `c j e` and a source position `p j e`, on top of a
  constant `z` that is zero.  (A butterfly stage has two taps per entry.)  Feeding the rows of the identity
  matrix through the same stages gives the rows `Yk i` of the network's matrix, and feeding a real row `x`
  through them gives `Yr`.  Over the extended reals distributivity needs finite entries, so the statement is
  carried by the predicate `Lin x Yr Yk`: both sides have real entries, and over the reals
  `Yr j = ∑ i, x i * Yk i j`.  It holds of the inputs (`Lin.base`), every stage keeps it (`Lin.step`), and
  at the end it reads as the matrix product on the extended reals (`Lin.result`).
-/
import Idealize.ShloMosaic.PureOps.Ideal

namespace LinearNetwork

open Finset

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {n : ℕ}

/-- `Yr` (one row pushed through some stages) and `Yk` (the identity's rows pushed through the same stages)
    have real entries, and `Yr` is the real row `x` times the matrix `Yk`. -/
def Lin (x : Fin n → ℝ) (Yr : Fin n → EReal) (Yk : Fin n → Fin n → EReal) : Prop :=
  ∃ (u : Fin n → ℝ) (w : Fin n → Fin n → ℝ),
    (∀ j, Yr j = (u j : EReal)) ∧ (∀ i j, Yk i j = (w i j : EReal)) ∧ ∀ j, u j = ∑ i, x i * w i j

/-- Before any stage: the row is `x` itself and the matrix is the identity. -/
theorem Lin.base (x : Fin n → ℝ) {Yr : Fin n → EReal} {Yk : Fin n → Fin n → EReal}
    (hr : ∀ j, Yr j = (x j : EReal))
    (hk : ∀ i j, Yk i j = if i = j then ((1 : ℝ) : EReal) else ((0 : ℝ) : EReal)) : Lin x Yr Yk := by
  refine ⟨x, fun i j => if i = j then 1 else 0, hr, fun i j => ?_, fun j => ?_⟩
  · rw [hk]; by_cases h : i = j <;> simp [h]
  · simp [Finset.sum_ite_eq']

/-- One stage, applied to the row and to every row of the matrix, keeps the relation: over the reals a sum of
    taps of a combination of rows is the combination of the sums of taps. -/
theorem Lin.step {x : Fin n → ℝ} {Yr : Fin n → EReal} {Yk : Fin n → Fin n → EReal} (h : Lin x Yr Yk)
    {m : ℕ} (c : Fin n → Fin m → ℝ) (p : Fin n → Fin m → Fin n) (z : EReal) (hz : z = 0)
    {Yr' : Fin n → EReal} {Yk' : Fin n → Fin n → EReal}
    (hr : ∀ j, Yr' j = z + ∑ e, (c j e : EReal) * Yr (p j e))
    (hk : ∀ i j, Yk' i j = z + ∑ e, (c j e : EReal) * Yk i (p j e)) : Lin x Yr' Yk' := by
  obtain ⟨u, w, hu, hw, huw⟩ := h
  refine ⟨fun j => ∑ e, c j e * u (p j e), fun i j => ∑ e, c j e * w i (p j e), fun j => ?_, fun i j => ?_,
    fun j => ?_⟩
  · rw [hr, hz, zero_add, coe_sum]
    exact Finset.sum_congr rfl fun e _ => by rw [hu, EReal.coe_mul]
  · rw [hk, hz, zero_add, coe_sum]
    exact Finset.sum_congr rfl fun e _ => by rw [hw, EReal.coe_mul]
  · simp only [huw, Finset.mul_sum]
    rw [Finset.sum_comm]
    exact Finset.sum_congr rfl fun i _ => Finset.sum_congr rfl fun e _ => by ring

/-- At the end the row is, entry by entry, the extended-real product of `x` with the network's matrix. -/
theorem Lin.result {x : Fin n → ℝ} {Yr : Fin n → EReal} {Yk : Fin n → Fin n → EReal} (h : Lin x Yr Yk)
    (j : Fin n) : Yr j = ∑ i, (x i : EReal) * Yk i j := by
  obtain ⟨u, w, hu, hw, huw⟩ := h
  rw [hu, huw, coe_sum]
  exact Finset.sum_congr rfl fun i _ => by rw [hw, EReal.coe_mul]

end LinearNetwork
-- ==== Proof.LibButterflyStage.lean ====
/-
  One butterfly stage of a power-of-two network, as the host prints it, read at an entry.

  The rows have length 1024 = nb · 2 · s: `nb` blocks, each of two halves of `s` consecutive entries.  Position
  `(blk * 2 + r) * s + l` is entry `l` of half `r` of block `blk`.  The stage multiplies, inside every block, the
  pair formed by entry `l` of the two halves with a 2×2 matrix of its own: the new entry `l` of half `r` is
      ∑ e : Fin 2,  twiddle[0, k, blk * s + l, r, e] · old entry `l` of half `e`,
  added from the float zero.  The array operations that compute it — a slice of the twiddle at stage `k`, two
  reshapes and a transpose of it, two broadcasts, the row reshaped to six axes and broadcast, a product, a sum
  over the axis of `e` and a reshape back — are stated here for ANY batch size `B`, block count `nb` and half
  length `s` with `nb * s = 512`, over arbitrary witnesses of the operations' shape facts (`stageArr`);
  `stageArr_apply` reads the result at a position given by coordinates, and `stageArr_taps` restates it for
  every position `j` of a row with the two source positions and twiddle indices as functions of `j` alone:
  the same functions whatever the batch size and whatever array the stage is applied to.
-/
import Idealize.ShloMosaic.Lib.Pipeline.Value
import Idealize.ShloMosaic.Lib.ValueIdx
import Idealize.ShloMosaic.Lib.ValueIdxRank6
import Idealize.ShloMosaic.PureOps.Ideal.Laws
import Idealize.ShloMosaic.PureOps.Contract

noncomputable section

namespace ButterflyStage

open Idealize.ShloMosaic Idealize.ShloMosaic.ValueIdx

/-! ## Positions in a row -/

section Positions
variable {nb s : ℕ}

/-- Entry `l` of half `q` of block `blk` is inside the row. -/
theorem pos_lt (hns : nb * s = 512) (blk : Fin nb) (q : Fin 2) (l : Fin s) :
    (blk.val * 2 + q.val) * s + l.val < 1024 := by
  have h1 : blk.val * 2 + q.val + 1 ≤ nb * 2 := by have := blk.isLt; have := q.isLt; omega
  have h2 := Nat.mul_le_mul_right s h1
  have h3 : nb * 2 * s = 1024 := by rw [Nat.mul_right_comm, hns]
  rw [Nat.add_mul, Nat.one_mul, h3] at h2
  have := l.isLt; omega

/-- The twiddle of block `blk`, entry `l`, is one of the stage's 512. -/
theorem tpos_lt (hns : nb * s = 512) (blk : Fin nb) (l : Fin s) : blk.val * s + l.val < 512 := by
  have h2 := Nat.mul_le_mul_right s (Nat.succ_le_of_lt blk.isLt)
  rw [Nat.succ_mul, hns] at h2
  have := l.isLt; omega

/-- The position of entry `l` of half `q` of block `blk`. -/
def pos (hns : nb * s = 512) (blk : Fin nb) (q : Fin 2) (l : Fin s) : Fin 1024 :=
  ⟨(blk.val * 2 + q.val) * s + l.val, pos_lt hns blk q l⟩

/-- The number of the 2×2 matrix that block `blk` applies at entry `l`. -/
def tpos (hns : nb * s = 512) (blk : Fin nb) (l : Fin s) : Fin 512 :=
  ⟨blk.val * s + l.val, tpos_lt hns blk l⟩

/-- Every position of a row is entry `l` of half `r` of block `blk` for some coordinates. -/
theorem pos_surj (hns : nb * s = 512) (j : Fin 1024) :
    ∃ (blk : Fin nb) (r : Fin 2) (l : Fin s), j = pos hns blk r l := by
  have hs : 0 < s := Nat.pos_of_ne_zero (by rintro rfl; simp at hns)
  have hq : j.val / s < nb * 2 := by
    apply Nat.div_lt_of_lt_mul
    have h3 : s * (nb * 2) = 1024 := by rw [Nat.mul_comm, Nat.mul_right_comm, hns]
    rw [h3]; exact j.isLt
  refine ⟨⟨j.val / s / 2, by omega⟩, ⟨j.val / s % 2, Nat.mod_lt _ (by decide)⟩, ⟨j.val % s, Nat.mod_lt _ hs⟩,
    Fin.ext ?_⟩
  show j.val = (j.val / s / 2 * 2 + j.val / s % 2) * s + j.val % s
  rw [Nat.div_add_mod' (j.val / s) 2, Nat.div_add_mod' j.val s]

/-- Row-major position of `(b, 0, blk, 0, q, l)` in `[B, 1, nb, 1, 2, s]` against `(b, 0, pos)` in `[B, 1, 1024]`. -/
theorem flat_in (hns : nb * s = 512) (b blk q l : ℕ) :
    (b * 1 + 0) * 1024 + ((blk * 2 + q) * s + l) = ((((b * 1 + 0) * nb + blk) * 1 + 0) * 2 + q) * s + l := by
  have h : (1024 : ℕ) = 2 * (nb * s) := by omega
  rw [h]; ring

/-- Row-major position of `(b, 0, blk, r, l)` in `[B, 1, nb, 2, s]` against `(b, 0, pos)` in `[B, 1, 1024]`. -/
theorem flat_out (hns : nb * s = 512) (b blk r l : ℕ) :
    (((b * 1 + 0) * nb + blk) * 2 + r) * s + l = (b * 1 + 0) * 1024 + ((blk * 2 + r) * s + l) := by
  have h : (1024 : ℕ) = 2 * (nb * s) := by omega
  rw [h]; ring

end Positions

/-- A coordinate on an axis that is kept by a broadcast (zero anyway when the axis has one entry). -/
theorem keep_coord {n : ℕ} (x : Fin n) : x.val = if n = 1 then 0 else x.val := by
  split_ifs with h
  · have := x.isLt; omega
  · rfl

/-- The coordinate on an operand axis of size one. -/
theorem unit_coord (y : ℕ) : (0 : ℕ) = if (1 : ℕ) = 1 then 0 else y := (if_pos rfl).symm

/-! ## The stage as the host computes it -/

/-- The shape facts of the operations of stage `k` on a batch of `B` rows, `nb` blocks of two halves of
    length `s` (each is decidable at literal sizes). -/
structure StageFacts (B nb s k : ℕ) : Prop where
  hsl : (⟨5, ![1, 10, 512, 2, 2]⟩ : Shape).Slices ![0, k, 0, 0, 0] ⟨5, ![1, 1, 512, 2, 2]⟩
  hc1 : (⟨5, ![1, 1, 512, 2, 2]⟩ : Shape).ShapeCasts ⟨4, ![1, 512, 2, 2]⟩
  hc2 : (⟨4, ![1, 512, 2, 2]⟩ : Shape).ShapeCasts ⟨5, ![1, nb, s, 2, 2]⟩
  htr : (⟨5, ![1, nb, s, 2, 2]⟩ : Shape).Transposes [0, 1, 3, 4, 2] ⟨5, ![1, nb, 2, 2, s]⟩
  hb1 : (⟨5, ![1, nb, 2, 2, s]⟩ : Shape).BroadcastsInDim ⟨6, ![1, 1, nb, 2, 2, s]⟩ ![1, 2, 3, 4, 5]
  hb2 : (⟨6, ![1, 1, nb, 2, 2, s]⟩ : Shape).BroadcastsInDim ⟨6, ![B, 1, nb, 2, 2, s]⟩ ![0, 1, 2, 3, 4, 5]
  hc3 : (⟨3, ![B, 1, 1024]⟩ : Shape).ShapeCasts ⟨6, ![B, 1, nb, 1, 2, s]⟩
  hb3 : (⟨6, ![B, 1, nb, 1, 2, s]⟩ : Shape).BroadcastsInDim ⟨6, ![B, 1, nb, 2, 2, s]⟩ ![0, 1, 2, 3, 4, 5]
  hrd : (⟨6, ![B, 1, nb, 2, 2, s]⟩ : Shape).ReducesTo [4] ⟨5, ![B, 1, nb, 2, s]⟩
  hR : (⟨6, ![B, 1, nb, 2, 2, s]⟩ : Shape).Reduces [4] ⟨5, ![B, 1, nb, 2, s]⟩
  hS : 0 < (⟨0, ![]⟩ : Shape).numel
  hc4 : (⟨5, ![B, 1, nb, 2, s]⟩ : Shape).ShapeCasts ⟨3, ![B, 1, 1024]⟩

/-- Stage `k` applied to a batch of `B` rows: the printed chain of array operations, for any witnesses of
    their shape facts. -/
def stageArr (B nb s k : ℕ) (W : StageFacts B nb s k)
    (tw : FVec Ideal ⟨5, ![1, 10, 512, 2, 2]⟩ .f32) (prev : FVec Ideal ⟨3, ![B, 1, 1024]⟩ .f32) :
    FVec Ideal ⟨3, ![B, 1, 1024]⟩ .f32 :=
  shapeCast _ (Host.reduceAdd
    (mulf
      (broadcastInDim ⟨6, ![B, 1, nb, 2, 2, s]⟩ ![0, 1, 2, 3, 4, 5] W.hb2
        (broadcastInDim ⟨6, ![1, 1, nb, 2, 2, s]⟩ ![1, 2, 3, 4, 5] W.hb1
          (transpose ⟨5, ![1, nb, 2, 2, s]⟩ [0, 1, 3, 4, 2]
            (shapeCast _ (shapeCast _
              (extractStridedSlice ⟨5, ![1, 1, 512, 2, 2]⟩ ![0, k, 0, 0, 0] tw W.hsl) W.hc1) W.hc2) W.htr)))
      (broadcastInDim ⟨6, ![B, 1, nb, 2, 2, s]⟩ ![0, 1, 2, 3, 4, 5] W.hb3 (shapeCast _ prev W.hc3)))
    (constant (F := Ideal) ⟨0, ![]⟩ .f32 0x00000000#32) W.hrd W.hS) W.hc4

/-! ## The stage read at an entry -/

section Read
variable {B nb s k : ℕ}

/-- The new entry `l` of half `r` of block `blk` of row `b`: the float zero plus, over the two halves `e`, the
    twiddle `[0, k, blk * s + l, r, e]` times the old entry `l` of half `e` of the same block of the same row. -/
theorem stageArr_apply (hns : nb * s = 512) (hk : k < 10) (W : StageFacts B nb s k)
    (tw : FVec Ideal ⟨5, ![1, 10, 512, 2, 2]⟩ .f32) (prev : FVec Ideal ⟨3, ![B, 1, 1024]⟩ .f32)
    (b : Fin B) (blk : Fin nb) (r : Fin 2) (l : Fin s) :
    stageArr B nb s k W tw prev (ix3 b 0 (pos hns blk r l))
      = Ideal.ofBits .f32 0x00000000#32
        + ∑ e : Fin 2, tw (ix5 0 ⟨k, hk⟩ (tpos hns blk l) r e) * prev (ix3 b 0 (pos hns blk e l)) := by
  obtain ⟨hsl, hc1, hc2, htr, hb1, hb2, hc3, hb3, hrd, hR, hS, hc4⟩ := W
  unfold stageArr
  -- the last reshape: position (b, 0, pos) of [B, 1, 1024] is (b, 0, blk, r, l) of [B, 1, nb, 2, s]
  refine (shapeCast_apply _ hc4 (ix3 b 0 (pos hns blk r l)) (ix5 b 0 blk r l) ?_).trans ?_
  · rw [Shape.rowMajor_val_five, Shape.rowMajor_val_three]
    exact flat_out hns b.val blk.val r.val l.val
  -- the sum over the axis of the halves
  simp only [Host.reduceAdd, Ideal.hostReduceAdd_def]
  rw [Ideal.hostReduceAdd_single hrd hR]
  refine congrArg₂ (· + ·) rfl (Finset.sum_congr rfl fun (e : Fin 2) _ => ?_)
  have hl : hR.lift (ix5 b 0 blk r l) e = ix6 b 0 blk r e l :=
    funext fun a => Fin.ext (by
      match a with
      | ⟨0, _⟩ => rfl | ⟨1, _⟩ => rfl | ⟨2, _⟩ => rfl | ⟨3, _⟩ => rfl | ⟨4, _⟩ => rfl | ⟨5, _⟩ => rfl)
  rw [hl]
  refine (mulf_apply _ _ _).trans (congrArg₂ (· * ·) ?_ ?_)
  · -- the twiddle: two broadcasts, the transpose, two reshapes, the slice
    refine (broadcastInDim_apply _ hb2 _ (ix6 b 0 blk r e l) (ix6 0 0 blk r e l) (fun a => ?_)).trans ?_
    · match a with
      | ⟨0, _⟩ => exact unit_coord _
      | ⟨1, _⟩ => exact unit_coord _
      | ⟨2, _⟩ => exact keep_coord blk
      | ⟨3, _⟩ => exact keep_coord r
      | ⟨4, _⟩ => exact keep_coord e
      | ⟨5, _⟩ => exact keep_coord l
    refine (broadcastInDim_apply _ hb1 _ (ix6 0 0 blk r e l) (ix5 0 blk r e l) (fun a => ?_)).trans ?_
    · match a with
      | ⟨0, _⟩ => exact unit_coord _
      | ⟨1, _⟩ => exact keep_coord blk
      | ⟨2, _⟩ => exact keep_coord r
      | ⟨3, _⟩ => exact keep_coord e
      | ⟨4, _⟩ => exact keep_coord l
    refine (transpose_apply [0, 1, 3, 4, 2] _ htr (ix5 0 blk r e l) (ix5 0 blk l r e) (fun a => ?_)).trans ?_
    · match a with
      | ⟨0, _⟩ => rfl | ⟨1, _⟩ => rfl | ⟨2, _⟩ => rfl | ⟨3, _⟩ => rfl | ⟨4, _⟩ => rfl
    refine (shapeCast_apply _ hc2 (ix5 0 blk l r e) (ix4 0 (tpos hns blk l) r e) ?_).trans ?_
    · rw [Shape.rowMajor_val_four, Shape.rowMajor_val_five]
      show ((0 * 512 + (blk.val * s + l.val)) * 2 + r.val) * 2 + e.val
        = ((((0 * nb + blk.val) * s + l.val) * 2 + r.val) * 2 + e.val)
      ring
    refine (shapeCast_apply _ hc1 (ix4 0 (tpos hns blk l) r e) (ix5 0 0 (tpos hns blk l) r e) ?_).trans ?_
    · rw [Shape.rowMajor_val_five, Shape.rowMajor_val_four]
      show ((((0 * 1 + 0) * 512 + (blk.val * s + l.val)) * 2 + r.val) * 2 + e.val)
        = ((0 * 512 + (blk.val * s + l.val)) * 2 + r.val) * 2 + e.val
      ring
    refine extractStridedSlice_apply ![0, k, 0, 0, 0] tw hsl (ix5 0 0 (tpos hns blk l) r e)
      (ix5 0 ⟨k, hk⟩ (tpos hns blk l) r e) (fun a => ?_)
    match a with
    | ⟨0, _⟩ => rfl
    | ⟨1, _⟩ => rfl
    | ⟨2, _⟩ => exact (Nat.zero_add _).symm
    | ⟨3, _⟩ => exact (Nat.zero_add _).symm
    | ⟨4, _⟩ => exact (Nat.zero_add _).symm
  · -- the old row: the broadcast along the new half axis, and the reshape to six axes
    refine (broadcastInDim_apply _ hb3 _ (ix6 b 0 blk r e l) (ix6 b 0 blk 0 e l) (fun a => ?_)).trans ?_
    · match a with
      | ⟨0, _⟩ => exact keep_coord b
      | ⟨1, _⟩ => exact unit_coord _
      | ⟨2, _⟩ => exact keep_coord blk
      | ⟨3, _⟩ => exact unit_coord _
      | ⟨4, _⟩ => exact keep_coord e
      | ⟨5, _⟩ => exact keep_coord l
    refine shapeCast_apply _ hc3 (ix6 b 0 blk 0 e l) (ix3 b 0 (pos hns blk e l)) ?_
    rw [Shape.rowMajor_val_three, Shape.rowMajor_val_six]
    exact flat_in hns b.val blk.val e.val l.val

/-- The same for EVERY position `j` of a row: the two twiddle indices `src j e` and the two source positions
    `p j e` are functions of the position alone — the same for every batch size, every row and every array
    the stage is applied to. -/
theorem stageArr_taps (hns : nb * s = 512) (hk : k < 10) :
    ∃ (src : Fin 1024 → Fin 2 → (⟨5, ![1, 10, 512, 2, 2]⟩ : Shape).Idx) (p : Fin 1024 → Fin 2 → Fin 1024),
      ∀ (B : ℕ) (W : StageFacts B nb s k) (tw : FVec Ideal ⟨5, ![1, 10, 512, 2, 2]⟩ .f32)
        (prev : FVec Ideal ⟨3, ![B, 1, 1024]⟩ .f32) (b : Fin B) (j : Fin 1024),
        stageArr B nb s k W tw prev (ix3 b 0 j)
          = Ideal.ofBits .f32 0x00000000#32 + ∑ e : Fin 2, tw (src j e) * prev (ix3 b 0 (p j e)) := by
  choose blk r l hj using pos_surj (nb := nb) (s := s) hns
  refine ⟨fun j e => ix5 0 ⟨k, hk⟩ (tpos hns (blk j) (l j)) (r j) e, fun j e => pos hns (blk j) e (l j), ?_⟩
  intro B W tw prev b j
  have h := stageArr_apply hns hk W tw prev b (blk j) (r j) (l j)
  rw [← hj j] at h
  exact h

end Read

end ButterflyStage

end
-- ==== Proof.LibButterflyNet.lean ====
/-
  The butterfly network on rows of length 1024: ten stages, stage `k` with 512 / 2^k blocks of two halves of
  length 2^k, each multiplying pairs of entries by its own 2×2 matrices taken from the twiddle array.

  `net B N tw X` is the batch `X` of `B` rows after the ten stages, as the host's array operations compute it
  (`ButterflyStage.stageArr`).  Every stage acts on each row separately and in the same way whatever the batch,
  as a sum of two taps with twiddle entries as coefficients (`stageArr_taps`); so, for real twiddles, a real row
  pushed through the network is that row times the matrix whose rows are the identity's rows pushed through
  it (`LinearNetwork.Lin`): `lin_stage` is one stage's step of that relation and `net_lin` the ten of them.
-/
import proofs.«124131_j34359738515_2_alg».proof.Proof.LibLinearNetwork
import proofs.«124131_j34359738515_2_alg».proof.Proof.LibButterflyStage

noncomputable section

namespace ButterflyStage

open Idealize.ShloMosaic Idealize.ShloMosaic.ValueIdx LinearNetwork

/-- One stage keeps "the row is `x` times the matrix of the identity's rows": the stage is the same sum of two
    taps on the row `b` of a batch of `B` rows and on every row of the batch of 1024 rows, and its coefficients,
    entries of a real twiddle array, are real. -/
theorem lin_stage {B nb s k : ℕ} (hns : nb * s = 512) (hk : k < 10)
    (W1 : StageFacts B nb s k) (W2 : StageFacts 1024 nb s k)
    {tw : FVec Ideal ⟨5, ![1, 10, 512, 2, 2]⟩ .f32} {tw' : (⟨5, ![1, 10, 512, 2, 2]⟩ : Shape).Idx → ℝ}
    (htw : ∀ i, tw i = (tw' i : EReal)) {x' : Fin 1024 → ℝ}
    {R : FVec Ideal ⟨3, ![B, 1, 1024]⟩ .f32} {K : FVec Ideal ⟨3, ![1024, 1, 1024]⟩ .f32} (b : Fin B)
    (h : Lin x' (fun j => R (ix3 b 0 j)) (fun i j => K (ix3 i 0 j))) :
    Lin x' (fun j => stageArr B nb s k W1 tw R (ix3 b 0 j))
      (fun i j => stageArr 1024 nb s k W2 tw K (ix3 i 0 j)) := by
  obtain ⟨src, p, hsp⟩ := stageArr_taps (nb := nb) (s := s) (k := k) hns hk
  refine h.step (fun j e => tw' (src j e)) p _ Ideal.ofBits_zero_f32 (fun j => ?_) (fun i j => ?_)
  · rw [hsp]; simp only [htw]
  · rw [hsp]; simp only [htw]

/-- The shape facts of the ten stages on a batch of `B` rows. -/
structure NetFacts (B : ℕ) : Prop where
  w0 : StageFacts B 512 1 0
  w1 : StageFacts B 256 2 1
  w2 : StageFacts B 128 4 2
  w3 : StageFacts B 64 8 3
  w4 : StageFacts B 32 16 4
  w5 : StageFacts B 16 32 5
  w6 : StageFacts B 8 64 6
  w7 : StageFacts B 4 128 7
  w8 : StageFacts B 2 256 8
  w9 : StageFacts B 1 512 9

/-- The batch `X` after the ten stages, first the stage of half length 1, last the stage of half length 512. -/
def net (B : ℕ) (N : NetFacts B) (tw : FVec Ideal ⟨5, ![1, 10, 512, 2, 2]⟩ .f32)
    (X : FVec Ideal ⟨3, ![B, 1, 1024]⟩ .f32) : FVec Ideal ⟨3, ![B, 1, 1024]⟩ .f32 :=
  stageArr B 1 512 9 N.w9 tw (stageArr B 2 256 8 N.w8 tw (stageArr B 4 128 7 N.w7 tw (stageArr B 8 64 6 N.w6 tw (stageArr B 16 32 5 N.w5 tw (stageArr B 32 16 4 N.w4 tw (stageArr B 64 8 3 N.w3 tw (stageArr B 128 4 2 N.w2 tw (stageArr B 256 2 1 N.w1 tw (stageArr B 512 1 0 N.w0 tw X)))))))))

/-- The ten stages keep the relation: if row `b` of `R` is `x` times the matrix of the rows of `K`, the same
    holds of the two batches after the network. -/
theorem net_lin {B : ℕ} (N1 : NetFacts B) (N2 : NetFacts 1024)
    {tw : FVec Ideal ⟨5, ![1, 10, 512, 2, 2]⟩ .f32} {tw' : (⟨5, ![1, 10, 512, 2, 2]⟩ : Shape).Idx → ℝ}
    (htw : ∀ i, tw i = (tw' i : EReal)) {x' : Fin 1024 → ℝ}
    {R : FVec Ideal ⟨3, ![B, 1, 1024]⟩ .f32} {K : FVec Ideal ⟨3, ![1024, 1, 1024]⟩ .f32} (b : Fin B)
    (h : Lin x' (fun j => R (ix3 b 0 j)) (fun i j => K (ix3 i 0 j))) :
    Lin x' (fun j => net B N1 tw R (ix3 b 0 j)) (fun i j => net 1024 N2 tw K (ix3 i 0 j)) := by
  unfold net
  exact lin_stage (by norm_num) (by decide) N1.w9 N2.w9 htw b (lin_stage (by norm_num) (by decide) N1.w8 N2.w8 htw b (lin_stage (by norm_num) (by decide) N1.w7 N2.w7 htw b (lin_stage (by norm_num) (by decide) N1.w6 N2.w6 htw b (lin_stage (by norm_num) (by decide) N1.w5 N2.w5 htw b (lin_stage (by norm_num) (by decide) N1.w4 N2.w4 htw b (lin_stage (by norm_num) (by decide) N1.w3 N2.w3 htw b (lin_stage (by norm_num) (by decide) N1.w2 N2.w2 htw b (lin_stage (by norm_num) (by decide) N1.w1 N2.w1 htw b (lin_stage (by norm_num) (by decide) N1.w0 N2.w0 htw b (h))))))))))

/-- The network's matrix: a real row `x` pushed through the ten stages is, entry by entry, the sum over `i` of
    `x i` times the `i`-th row of the identity pushed through them. -/
theorem net_apply {B : ℕ} (N1 : NetFacts B) (N2 : NetFacts 1024)
    {tw : FVec Ideal ⟨5, ![1, 10, 512, 2, 2]⟩ .f32} {tw' : (⟨5, ![1, 10, 512, 2, 2]⟩ : Shape).Idx → ℝ}
    (htw : ∀ i, tw i = (tw' i : EReal)) {x' : Fin 1024 → ℝ}
    {R : FVec Ideal ⟨3, ![B, 1, 1024]⟩ .f32} {K : FVec Ideal ⟨3, ![1024, 1, 1024]⟩ .f32} (b : Fin B)
    (hR : ∀ j, R (ix3 b 0 j) = (x' j : EReal))
    (hK : ∀ i j, K (ix3 i 0 j) = if i = j then ((1 : ℝ) : EReal) else ((0 : ℝ) : EReal)) (j : Fin 1024) :
    net B N1 tw R (ix3 b 0 j) = ∑ i, (x' i : EReal) * net 1024 N2 tw K (ix3 i 0 j) :=
  (net_lin N1 N2 htw b (Lin.base x' hR hK)).result j

end ButterflyStage

end
-- ==== Proof.IdentityMatrix.lean ====
/-
  The identity matrix built from two iotas, read at an index.

  The host program forms a 1024 × 1024 matrix by comparing the row coordinate (plus a broadcast zero)
  with the column coordinate, both as 32-bit words, and converting the resulting bit to a float. At
  the ideal instance the conversion of a bit is the real number 0 or 1, and two coordinates below
  2¹⁰ are equal as 32-bit words exactly when they are equal as numbers; so the matrix reads 1 on the
  diagonal and 0 off it.
-/
import proofs.«124131_j34359738515_2_alg».proof.KernelIdeal
import Idealize.ShloMosaic.Lib.IdealHost

namespace Cert.KernelIdeal.Eye

open Idealize.ShloMosaic Idealize.ShloMosaic.ValueIdx

/-- Two numbers below 2¹⁰ are equal as 32-bit words exactly when they are equal. -/
theorem ofNat_beq (i j : Fin 1024) :
    (BitVec.ofNat 32 i.val == BitVec.ofNat 32 j.val) = decide (i = j) := by
  have hi := i.isLt; have hj := j.isLt
  by_cases h : i = j
  · subst h; simp
  · have hne : BitVec.ofNat 32 i.val ≠ BitVec.ofNat 32 j.val := by
      intro e
      have e' := congrArg BitVec.toNat e
      simp only [BitVec.toNat_ofNat] at e'
      apply h; apply Fin.ext; omega
    simp [h, hne]

/-- The word-level comparison the matrix is made of: row coordinate plus zero against column coordinate. -/
theorem cmp_word (i j : Fin 1024) :
    IntOp.cmpi .eq (IntOp.addi (BitVec.ofNat 32 i.val) 0#32) (BitVec.ofNat 32 j.val)
      = BitVec.ofBool (decide (i = j)) := by
  have h0 : IntOp.addi (BitVec.ofNat 32 i.val) 0#32 = BitVec.ofNat 32 i.val := by
    simp [IntOp.addi]
  rw [h0]
  show BitVec.ofBool (BitVec.ofNat 32 i.val == BitVec.ofNat 32 j.val) = _
  rw [ofNat_beq]

/-- The matrix at row `i`, column `j`, for any witness of the scalar's broadcast: 1 on the diagonal, 0 off it. -/
theorem eye_apply (hb : S_.BroadcastsInDim S1024x1024 (![] : Fin 0 → Fin S1024x1024.rank)) (i j : Fin 1024) :
    (uitofp (F := Ideal) .f32 (cmpi .eq (addi (iotaInDim S1024x1024 32 0)
        (broadcastInDim S1024x1024 ![] hb (constantI S_ 32 0#32))) (iotaInDim S1024x1024 32 1))
      : S1024x1024.Idx → EReal) (ValueIdx.ix2 i j)
      = if i = j then ((1 : ℝ) : EReal) else ((0 : ℝ) : EReal) := by
  have hbc : broadcastInDim S1024x1024 ![] hb (constantI S_ 32 0#32) (ix2 i j) = 0#32 :=
    broadcastInDim_scalar_apply hb _ _
  show (((IntOp.cmpi .eq (IntOp.addi (BitVec.ofNat 32 i.val)
      (broadcastInDim S1024x1024 ![] hb (constantI S_ 32 0#32) (ix2 i j)))
      (BitVec.ofNat 32 j.val)).toNat : ℝ) : EReal) = _
  rw [hbc, cmp_word]
  by_cases h : i = j <;> simp [h]

/-- The same at an arbitrary index of the matrix's shape, the diagonal told by the coordinates' values. -/
theorem eye_apply_idx (hb : S_.BroadcastsInDim S1024x1024 (![] : Fin 0 → Fin S1024x1024.rank))
    (idx : S1024x1024.Idx) :
    (uitofp (F := Ideal) .f32 (cmpi .eq (addi (iotaInDim S1024x1024 32 0)
        (broadcastInDim S1024x1024 ![] hb (constantI S_ 32 0#32))) (iotaInDim S1024x1024 32 1))
      : S1024x1024.Idx → EReal) idx
      = if (idx 0).val = (idx 1).val then ((1 : ℝ) : EReal) else ((0 : ℝ) : EReal) := by
  obtain ⟨a, b, rfl⟩ : ∃ a b : Fin 1024, idx = ix2 a b := ⟨idx 0, idx 1, eq_ix2 idx⟩
  refine (eye_apply hb a b).trans ?_
  show (if a = b then ((1 : ℝ) : EReal) else ((0 : ℝ) : EReal))
      = if a.val = b.val then ((1 : ℝ) : EReal) else ((0 : ℝ) : EReal)
  by_cases h : a = b
  · subst h; simp
  · have hv : ¬ a.val = b.val := fun e => h (Fin.ext e)
    rw [if_neg h, if_neg hv]

end Cert.KernelIdeal.Eye
-- ==== Proof.KernelHost.lean ====
/-
  The two arrays the kernel's host code prepares before the launch.

  The weight matrix `W` is the 1024 × 1024 identity — built from two index grids compared for equality —
  laid out as a batch `[1024, 1, 1024]` of its rows, pushed through the ten butterfly stages
  (`ButterflyStage.net`) and flattened back to `[1024, 1024]`: row `i` of `W` is the `i`-th unit row after the
  network.  The second array is the bias as a single row `[1, 1024]`.  They are defined here and read entry by
  entry; that they are what the launch finds in its operand buffers is the module KernelHostTerms.
-/
import proofs.«124131_j34359738515_2_alg».proof.Proof.LibButterflyNet
import proofs.«124131_j34359738515_2_alg».proof.Proof.IdentityMatrix
import Idealize.ShloMosaic.Lib.Pipeline.Value
import Idealize.ShloMosaic.Lib.ValueIdx

noncomputable section

namespace Cert.KernelIdeal.HostArrays

open Cert.KernelIdeal Idealize.ShloMosaic Idealize.ShloMosaic.TcCoe Idealize.SL.Sem
open ButterflyStage Idealize.ShloMosaic.ValueIdx

/-- The shape facts of the ten stages on the batch of the identity's 1024 rows. -/
theorem facts : NetFacts 1024 := by
  constructor <;> (constructor <;> decide)

/-- The identity matrix as the host builds it: 1 where the row number equals the column number. -/
def eye : FVec Ideal ⟨2, ![1024, 1024]⟩ .f32 :=
  uitofp (F := Ideal) .f32 (cmpi .eq (addi (iotaInDim S1024x1024 32 0)
    (broadcastInDim S1024x1024 ![] (by decide) (constantI S_ 32 0#32))) (iotaInDim S1024x1024 32 1))

/-- Its rows as a batch with a unit middle axis. -/
def idRows : FVec Ideal ⟨3, ![1024, 1, 1024]⟩ .f32 :=
  broadcastInDim ⟨3, ![1024, 1, 1024]⟩ ![0, 2] (by decide) eye

/-- The weight matrix: the identity's rows after the network. -/
def weights (tw : FVec Ideal ⟨5, ![1, 10, 512, 2, 2]⟩ .f32) : FVec Ideal ⟨2, ![1024, 1024]⟩ .f32 :=
  shapeCast ⟨2, ![1024, 1024]⟩ (net 1024 facts tw idRows) (by decide)

/-- The bias as one row. -/
def biasRow (bias : FVec Ideal ⟨1, ![1024]⟩ .f32) : FVec Ideal ⟨2, ![1, 1024]⟩ .f32 :=
  shapeCast ⟨2, ![1, 1024]⟩ bias (by decide)

/-- The batch before the network is the identity: entry `j` of row `i` is 1 when `i = j` and 0 otherwise. -/
theorem idRows_apply (i j : Fin 1024) :
    idRows (ix3 i 0 j) = if i = j then ((1 : ℝ) : EReal) else ((0 : ℝ) : EReal) := by
  unfold idRows eye
  refine (broadcastInDim_apply _ _ _ (ix3 i 0 j) (ix2 i j) (fun a => ?_)).trans (Eye.eye_apply _ i j)
  match a with
  | ⟨0, _⟩ => exact keep_coord i
  | ⟨1, _⟩ => exact keep_coord j

/-- Entry `(i, o)` of the weight matrix: entry `o` of the `i`-th unit row after the network. -/
theorem weights_apply (tw : FVec Ideal ⟨5, ![1, 10, 512, 2, 2]⟩ .f32) (i o : Fin 1024) :
    weights tw (ix2 i o) = net 1024 facts tw idRows (ix3 i 0 o) := by
  unfold weights
  refine shapeCast_apply _ _ (ix2 i o) (ix3 i 0 o) ?_
  rw [Shape.rowMajor_val_three, Shape.rowMajor_val_two]
  show (i.val * 1 + 0) * 1024 + o.val = i.val * 1024 + o.val
  omega

/-- Entry `(0, o)` of the bias row is `bias o`. -/
theorem biasRow_apply (bias : FVec Ideal ⟨1, ![1024]⟩ .f32) (o : Fin 1024) :
    biasRow bias (ix2 0 o) = bias (ix1 o) := by
  unfold biasRow
  refine shapeCast_apply _ _ (ix2 0 o) (ix1 o) ?_
  rw [Shape.rowMajor_val_one, Shape.rowMajor_val_two]
  show o.val = 0 * 1024 + o.val
  omega

end Cert.KernelIdeal.HostArrays

end
-- ==== Proof.KernelHostTerms.lean ====
/-
  What the launch finds in its operand buffers: after the host operations that precede it, the second
  operand holds the weight matrix — the identity's rows after the butterfly network, at the launch-time
  twiddles — and the third the bias as one row (`Cert.KernelIdeal.HostArrays.weights`, `biasRow`).  Each is
  the host operations' composed term, read off the list of operations.
-/
import proofs.«124131_j34359738515_2_alg».proof.Proof.Gen.KernelIdeal.Frame
import proofs.«124131_j34359738515_2_alg».proof.Proof.KernelHost
import Idealize.ShloMosaic.Lib.StableHlo.Run

noncomputable section

namespace Cert.KernelIdeal.HostArrays

open Cert.KernelIdeal Cert.KernelIdeal.Gen Idealize.ShloMosaic Idealize.ShloMosaic.TcCoe Idealize.SL.Sem
open Idealize.ShloMosaic.StableHlo

set_option maxRecDepth 8192 in
set_option maxHeartbeats 50000000 in
/-- The second operand at the launch: the weight matrix of the launch-time twiddles. -/
theorem weights_eq (m : (ℓ : Loc nD τ sig) → Buf (Elt Ideal) ℓ) (c : Dev nD) :
    (V m c main_v117 : S1024x1024.Idx → EReal) = weights (m ((c : Thread nD τ).loc main_arg1)) := by
  dsimp only [Gen.V, Gen.hostOps0]
  after_results_simp <;> rfl

set_option maxRecDepth 8192 in
set_option maxHeartbeats 50000000 in
/-- The third operand at the launch: the bias as one row. -/
theorem bias_eq (m : (ℓ : Loc nD τ sig) → Buf (Elt Ideal) ℓ) (c : Dev nD) :
    (V m c main_v118 : S1x1024.Idx → EReal) = biasRow (m ((c : Thread nD τ).loc main_arg2)) := by
  dsimp only [Gen.V, Gen.hostOps0]
  after_results_simp <;> rfl

end Cert.KernelIdeal.HostArrays

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.LibPlainHostProduct.lean ====
/-
  A plain host matrix product read at an index, over the extended reals.

  The host's `dot_general` of an `R × n` matrix by an `n × k` matrix (the left operand contracted on its second axis,
  the right one on its first, no batch axis) is, at row `q` and column `o`, the sum over `c : Fin n` of
  `A (q, c) * B (c, o)`, whatever the schedule key: there is no accumulator, and the contraction index, a one-axis
  multi-index, is re-indexed by its one coordinate. It is the host counterpart of the kernel-side product into the
  zero matrix, over the same dimension numbers `plainDims`, so the two meet in one sum.
-/
import Idealize.ShloMosaic.PureOps.Ideal
import Idealize.ShloMosaic.PureOps.Ideal.Laws
import Idealize.ShloMosaic.Lib.ValueIdx
import proofs.«124131_j34359738515_2_alg».proof.Proof.LibPlainMatmul

noncomputable section

namespace Cert.PointConv

open Idealize.ShloMosaic Idealize.ShloMosaic.ValueIdx

/-- A host product of an `R × n` by an `n × k` matrix, at `(q, o)`: the sum over the shared axis. -/
theorem plainDotGeneral_apply {R n k : Nat} {φ₁ φ₂ : FTy} (wf) (prec : Option ContractPrecision) (sched : HostSchedule)
    (A : FVec Ideal (⟨2, ![R, n]⟩ : Shape) φ₁) (B : FVec Ideal (⟨2, ![n, k]⟩ : Shape) φ₂) (q : Fin R) (o : Fin k) :
    FloatOps.dotGeneral (plainDims R n k wf) prec sched A B (ix2 q o) = ∑ c : Fin n, A (ix2 q c) * B (ix2 c o) := by
  rw [Ideal.dotGeneral_apply, ← Equiv.sum_comp (plainContr wf).symm]
  refine Finset.sum_congr rfl fun c _ => ?_
  rw [plainDims_lhsIdx, plainDims_rhsIdx]

end Cert.PointConv

end
-- ==== Proof.LibRowLayout.lean ====
/-
  A vector laid out as a one-row matrix, two ways, and a one-row matrix copied down the rows.

  A bias vector of n entries meets an R×n table as a one-row matrix copied down the R rows. A kernel gets the row by a
  reshape of the vector to 1×n on the host and copies it with `vector.broadcast`; jnp gets it by a broadcast of the vector
  into dimension 1 of a 1×n matrix and a second broadcast down the rows. The two one-row matrices are the same matrix
  (`rowLayout`: entry (0, k) of either is entry k of the vector), and the kernel's copy, read at (r, k), is the row at
  (0, k) (`rowBroadcast_apply`). Stated for any entry type and any sizes; n = 1 is a bias cell met with a column.
-/
import Idealize.ShloMosaic.Lib.Pipeline.Value
import Idealize.ShloMosaic.Lib.ValueIdx

noncomputable section

namespace Idealize.ShloMosaic.RowLayout

open Idealize.ShloMosaic Idealize.ShloMosaic.ValueIdx

/-- A one-row matrix copied down R rows (a kernel's `vector.broadcast` of 1×n to R×n), read at (r, k), is the row at (0, k). -/
theorem rowBroadcast_apply {α : Type} {R n : ℕ} (x : (⟨2, ![1, n]⟩ : Shape).Idx → α)
    (h : (⟨2, ![1, n]⟩ : Shape).Broadcasts ⟨2, ![R, n]⟩) (r : Fin R) (k : Fin n) :
    broadcastTo ⟨2, ![R, n]⟩ x h (ix2 r k) = x (ix2 (0 : Fin 1) k) := by
  refine broadcastTo_apply x h (ix2 r k) (ix2 (0 : Fin 1) k) fun a => ?_
  match a with
  | ⟨0, _⟩ => rfl
  | ⟨1, _⟩ =>
    show k.val = if n = 1 then 0 else k.val
    split_ifs with hn
    · have := k.isLt; omega
    · rfl

/-- A vector of n entries broadcast into dimension 1 of a 1×n matrix, read at (z, k), is the vector at k. -/
theorem rowOfVector_apply {α : Type} {n : ℕ} (b : (⟨1, ![n]⟩ : Shape).Idx → α)
    (h : (⟨1, ![n]⟩ : Shape).BroadcastsInDim ⟨2, ![1, n]⟩ ![1]) (z : Fin 1) (k : Fin n) :
    broadcastInDim ⟨2, ![1, n]⟩ ![1] h b (ix2 z k) = b (ix1 k) := by
  refine broadcastInDim_apply ![1] h b (ix2 z k) (ix1 k) fun a => ?_
  match a with
  | ⟨0, _⟩ =>
    show k.val = if n = 1 then 0 else k.val
    split_ifs with hn
    · have := k.isLt; omega
    · rfl

/-- A vector of n entries reshaped to 1×n is the vector broadcast into dimension 1 of a 1×n matrix. -/
theorem rowLayout {α : Type} {n : ℕ} (b : (⟨1, ![n]⟩ : Shape).Idx → α) (h : (⟨1, ![n]⟩ : Shape).ShapeCasts ⟨2, ![1, n]⟩)
    (h' : (⟨1, ![n]⟩ : Shape).BroadcastsInDim ⟨2, ![1, n]⟩ ![1]) :
    shapeCast ⟨2, ![1, n]⟩ b h = broadcastInDim ⟨2, ![1, n]⟩ ![1] h' b := by
  funext j
  obtain ⟨z, k, rfl⟩ : ∃ (z : Fin 1) (k : Fin n), j = ix2 z k := ⟨j 0, j 1, eq_ix2 j⟩
  rw [rowOfVector_apply b h' z k]
  refine (shapeCast_addUnit_apply ![n] b h (ix2 z k)).trans (congrArg b (funext fun a => ?_))
  match a with
  | ⟨0, _⟩ => rfl

end Idealize.ShloMosaic.RowLayout

end
-- ==== Proof.LibDenseLayer.lean ====
/-
  Dense layers read entry by entry, over the extended reals.

  A layer `act (X · W + bias)` is computed two ways. On the vector unit a block of `R` rows `x` is multiplied by the
  weight matrix into the zero matrix, and a bias row `[1, k]` is copied down the `R` rows and added. On the host the
  whole matrix `X : [N, n]` is multiplied by `W : [n, k]` and the bias row is broadcast along the rows. Read at row
  `q`, column `o`, both are the same number: `(∑ c, X (q, c) * W (c, o)) + bias (0, o)`. The lemmas below state
  each form at an index, generic in the sizes, together with the forms of the two activations used after such a layer
  (the maximum with zero, and `x` where `x > 0` else `x` scaled), a bias row that is all zeros (adding it changes
  nothing: `a + 0 = a` holds for every extended real), and the elementwise `A + bias` layer.
-/
import Idealize.ShloMosaic.PureOps.Ideal
import Idealize.ShloMosaic.PureOps.Ideal.Laws
import Idealize.ShloMosaic.Lib.ValueIdx
import Idealize.ShloMosaic.Lib.Pipeline.Value
import proofs.«124131_j34359738515_2_alg».proof.Proof.LibPlainMatmul
import proofs.«124131_j34359738515_2_alg».proof.Proof.LibPlainHostProduct
import proofs.«124131_j34359738515_2_alg».proof.Proof.LibRowLayout

noncomputable section

namespace Cert.DenseLayer

open Idealize.ShloMosaic Idealize.ShloMosaic.ValueIdx Cert.PointConv Idealize.ShloMosaic.RowLayout

variable {R N n k : Nat}

/-- A bias row `[1, k]` broadcast along the rows of `[N, k]` by the host (dimensions `[0, 1]`) reads, at `(i, o)`,
    the row's entry `(0, o)`. -/
theorem hostRow_apply {α : Type} (B2 : (⟨2, ![1, k]⟩ : Shape).Idx → α)
    (h : (⟨2, ![1, k]⟩ : Shape).BroadcastsInDim ⟨2, ![N, k]⟩ ![0, 1]) (i : Fin N) (o : Fin k) :
    broadcastInDim ⟨2, ![N, k]⟩ ![0, 1] h B2 (ix2 i o) = B2 (ix2 (0 : Fin 1) o) := by
  refine broadcastInDim_apply ![0, 1] h B2 (ix2 i o) (ix2 (0 : Fin 1) o) fun a => ?_
  match a with
  | ⟨0, _⟩ => show (0 : Nat) = if (1 : Nat) = 1 then 0 else i.val; rw [if_pos rfl]
  | ⟨1, _⟩ =>
    show o.val = if k = 1 then 0 else o.val
    split
    · have := o.isLt; omega
    · rfl

/-- A block of `R` rows times the weights, accumulated from zero, plus the bias row copied down the block:
    entry `(q, o)` is `(∑ c, x (q, c) * w (c, o)) + bias (0, o)`. -/
theorem blockAffine_apply (wf) (prec : Option ContractPrecision) (x : FVec Ideal (⟨2, ![R, n]⟩ : Shape) .f32)
    (w : FVec Ideal (⟨2, ![n, k]⟩ : Shape) .f32) (b2 : FVec Ideal (⟨2, ![1, k]⟩ : Shape) .f32)
    (hb : (⟨2, ![1, k]⟩ : Shape).Broadcasts ⟨2, ![R, k]⟩) (q : Fin R) (o : Fin k) :
    addf (matmul (plainDims R n k wf) prec x w (constant (F := Ideal) (⟨2, ![R, k]⟩ : Shape) .f32 0x00000000#32))
        (broadcastTo ⟨2, ![R, k]⟩ b2 hb) (ix2 q o)
      = (∑ c : Fin n, x (ix2 q c) * w (ix2 c o)) + b2 (ix2 (0 : Fin 1) o) := by
  show FloatOps.matmul (plainDims R n k wf) prec x w _ (ix2 q o) + broadcastTo ⟨2, ![R, k]⟩ b2 hb (ix2 q o) = _
  rw [plainMatmul_zero_apply, rowBroadcast_apply]

/-- The host's product of the whole matrix plus the bias row broadcast along the rows: entry `(i, o)` is
    `(∑ c, X (i, c) * W (c, o)) + bias (0, o)`. -/
theorem hostAffine_apply (wf) (prec : Option ContractPrecision) (X : FVec Ideal (⟨2, ![N, n]⟩ : Shape) .f32)
    (W : FVec Ideal (⟨2, ![n, k]⟩ : Shape) .f32) (B2 : FVec Ideal (⟨2, ![1, k]⟩ : Shape) .f32)
    (h : (⟨2, ![1, k]⟩ : Shape).BroadcastsInDim ⟨2, ![N, k]⟩ ![0, 1]) (i : Fin N) (o : Fin k) :
    addf (Host.dotGeneral (plainDims N n k wf) prec X W) (broadcastInDim ⟨2, ![N, k]⟩ ![0, 1] h B2) (ix2 i o)
      = (∑ c : Fin n, X (ix2 i c) * W (ix2 c o)) + B2 (ix2 (0 : Fin 1) o) := by
  show FloatOps.dotGeneral (plainDims N n k wf) prec .single X W (ix2 i o)
      + broadcastInDim ⟨2, ![N, k]⟩ ![0, 1] h B2 (ix2 i o) = _
  rw [plainDotGeneral_apply, hostRow_apply]

/-- The host's product alone, at an entry. -/
theorem hostProduct_apply (wf) (prec : Option ContractPrecision) (X : FVec Ideal (⟨2, ![N, n]⟩ : Shape) .f32)
    (W : FVec Ideal (⟨2, ![n, k]⟩ : Shape) .f32) (i : Fin N) (o : Fin k) :
    Host.dotGeneral (plainDims N n k wf) prec X W (ix2 i o) = ∑ c : Fin n, X (ix2 i c) * W (ix2 c o) :=
  plainDotGeneral_apply wf prec .single X W i o

/-- The word of zero is the extended real zero, and adding it changes nothing. -/
theorem add_zero_word (a : EReal) : a + Ideal.ofBits .f32 0x00000000#32 = a := by
  rw [Ideal.ofBits_zero_f32, add_zero]

end Cert.DenseLayer

end
-- ==== Proof.KernelArray.lean ====
/-
  The kernel's output array as one closed function of the arrays it reads.

  The launch runs over 64 points; point t takes rows 512·t … 512·t + 511 of the input matrix x, multiplies that block
  of 512 rows by the whole 1024 × 1024 weight matrix W into a zero accumulator, adds the bias row (a 1 × 1024 matrix
  copied down the 512 rows), and stores the block over rows 512·t … 512·t + 511 of the output. The 64 row blocks tile
  the 32768 rows, and a block's entry depends only on its own row of x, so the output array is one function of x, W
  and the bias row: entry (r, o) is (the sum over k of x (r, k) · W (k, o)) + bias (0, o), exactly, over the
  extended reals.
-/
import proofs.«124131_j34359738515_2_alg».proof.Proof.Gen.KernelIdeal.Value
import proofs.«124131_j34359738515_2_alg».proof.Proof.LibDenseLayer
import Idealize.ShloMosaic.Lib.Pipeline.Value
import Idealize.ShloMosaic.Lib.ValueIdx
import Idealize.ShloMosaic.PureOps.Ideal
import Idealize.ShloMosaic.PureOps.Ideal.Laws

noncomputable section

open scoped BigOperators

namespace Cert.KernelIdeal.Arr

open Cert.KernelIdeal Cert.KernelIdeal.Gen Idealize.ShloMosaic Idealize.ShloMosaic.TcCoe Idealize.SL.Sem
open Idealize.ShloMosaic.Pipeline (Dat)
open Idealize.ShloMosaic.ValueIdx Cert.DenseLayer Cert.PointConv

/-! ## The specification -/

/-- The affine map of the rows: entry (r, o) is the dot product of row r of x with column o of W, plus the bias
    row's entry o. -/
def outArr (x : S32768x1024.Idx → EReal) (W : S1024x1024.Idx → EReal) (b2 : S1x1024.Idx → EReal) :
    S32768x1024.Idx → EReal :=
  fun i => (∑ k : Fin 1024, x (ix2 (i 0) k) * W (ix2 k (i 1))) + b2 (ix2 (0 : Fin 1) (i 1))

/-- The specification at an index given by its coordinates. -/
theorem outArr_apply (x : S32768x1024.Idx → EReal) (W : S1024x1024.Idx → EReal) (b2 : S1x1024.Idx → EReal)
    (r : Fin 32768) (o : Fin 1024) :
    outArr x W b2 (ix2 r o) = (∑ k : Fin 1024, x (ix2 r k) * W (ix2 k o)) + b2 (ix2 (0 : Fin 1) o) := rfl

/-! ## One block -/

theorem zero_offsets : (![0, 0] : Fin 2 → Nat) = fun _ => 0 := funext fun a => by fin_cases a <;> rfl

/-- What the body stores for a block of 512 rows x0, the weights x1 and the bias row x2, at row q and column o of
    the block: the row's dot product with the column, plus the bias entry. -/
theorem block_apply (x0 : Vec Ideal S512x1024 .f32) (x1 : Vec Ideal S1024x1024 .f32) (x2 : Vec Ideal S1x1024 .f32)
    (q : Fin 512) (o : Fin 1024) :
    out0_3 x0 x1 x2 (ix2 q o) = (∑ k : Fin 1024, x0 (ix2 q k) * x1 (ix2 k o)) + x2 (ix2 (0 : Fin 1) o) := by
  unfold out0_3
  rw [View.canon_unit_zero zero_offsets]
  simp only [View.ld_unit_zero (S := S512x1024) zero_offsets, View.ld_unit_zero (S := S1024x1024) zero_offsets,
    View.ld_unit_zero (S := S1x1024) zero_offsets]
  unfold k0_pay1
  rw [shapeCast_self, shapeCast_self]
  exact blockAffine_apply Facts₀.dot_S512x1024_S1024x1024_S512x1024_1_0_0_1_n_n_wf (some .fp32) x0 x1 x2
    Facts₀.broadcasts_S1x1024_S512x1024 q o

/-- A stored block against the specification, at a block entry y and the array index i it lands on: the block x0
    holds rows 512·T … 512·T + 511 of X, the block x1 is W, the block x2 is the bias row, and i is y moved down by
    512·T rows. -/
theorem block_eq_outArr (x0 : Vec Ideal S512x1024 .f32) (x1 : Vec Ideal S1024x1024 .f32) (x2 : Vec Ideal S1x1024 .f32)
    (X : S32768x1024.Idx → EReal) (W : S1024x1024.Idx → EReal) (b2 : S1x1024.Idx → EReal) (T : Nat)
    (h0 : ∀ (q : Fin 512) (k : Fin 1024) (r : Fin 32768), r.val = 512 * T + q.val → x0 (ix2 q k) = X (ix2 r k))
    (h1 : x1 = W) (h2 : x2 = b2) (y : S512x1024.Idx) (i : S32768x1024.Idx)
    (hi0 : (i 0).val = 512 * T + (y 0).val) (hi1 : (i 1).val = (y 1).val) :
    out0_3 x0 x1 x2 y = outArr X W b2 i := by
  obtain ⟨q, o, rfl⟩ : ∃ (q : Fin 512) (o : Fin 1024), y = ix2 q o := ⟨y 0, y 1, eq_ix2 y⟩
  obtain ⟨r, o', rfl⟩ : ∃ (r : Fin 32768) (o' : Fin 1024), i = ix2 r o' := ⟨i 0, i 1, eq_ix2 i⟩
  obtain rfl : o' = o := Fin.ext hi1
  subst h1 h2
  rw [block_apply, outArr_apply]
  exact congrArg (· + x2 (ix2 (0 : Fin 1) o')) (Finset.sum_congr rfl fun k _ => by rw [h0 q k r hi0])

/-! ## The blocks the 64 points read and write -/

section
variable (m : (ℓ : Loc nD τ sig) → Buf (Elt Ideal) ℓ) (ρ : Dev nD → PrngReg)

/-- The printed index maps over the 64 points: point t reads block row t of x and writes block row t of the output,
    and reads the one block of W and of the bias row. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point t's block of x is rows 512·t … 512·t + 511 of x as the launch finds it. -/
theorem rows_block (c : Dev nD) (t : Fin cfg0.N) (q : Fin 512) (k : Fin 1024) (r : Fin 32768)
    (hr : r.val = 512 * t.val + q.val) :
    (iblk m c 0 t : Vec Ideal S512x1024 .f32) (ix2 q k) = (V m c main_arg0 : S32768x1024.Idx → EReal) (ix2 r k) := by
  obtain ⟨e0, e1, -⟩ := index_facts t
  unfold iblk
  rw [View.read_apply]
  show V m c main_arg0 _ = V m c main_arg0 _
  refine congrArg _ (funext fun a => Fin.ext ?_)
  match a with
  | ⟨0, _⟩ => show win0_0.index t (0 : Fin 2) * 512 + 1 * q.val = r.val; omega
  | ⟨1, _⟩ => show win0_0.index t (1 : Fin 2) * 1024 + 1 * k.val = k.val; omega

/-- Every point's block of the weights is the whole matrix. -/
theorem weights_block (c : Dev nD) (t : Fin cfg0.N) :
    (iblk m c 1 t : Vec Ideal S1024x1024 .f32) = (V m c main_v117 : S1024x1024.Idx → EReal) := by
  obtain ⟨-, -, e0, e1, -⟩ := index_facts t
  funext y
  unfold iblk
  rw [View.read_apply]
  show V m c main_v117 _ = V m c main_v117 y
  refine congrArg _ (funext fun a => Fin.ext ?_)
  match a with
  | ⟨0, _⟩ => show win0_1.index t (0 : Fin 2) * 1024 + 1 * (y 0).val = (y 0).val; omega
  | ⟨1, _⟩ => show win0_1.index t (1 : Fin 2) * 1024 + 1 * (y 1).val = (y 1).val; omega

/-- Every point's block of the bias row is the whole row. -/
theorem bias_block (c : Dev nD) (t : Fin cfg0.N) :
    (iblk m c 2 t : Vec Ideal S1x1024 .f32) = (V m c main_v118 : S1x1024.Idx → EReal) := by
  obtain ⟨-, -, -, -, e0, e1, -⟩ := index_facts t
  funext y
  unfold iblk
  rw [View.read_apply]
  show V m c main_v118 _ = V m c main_v118 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 1024 + 1 * (y 1).val = (y 1).val; omega

/-- What point t writes back is block t of the specification of the arrays as the launch finds them. -/
theorem flushed_eq (c : Dev nD) (t : Fin cfg0.N) :
    (dats m 0 c).flushed 3 t = ((cfg0.win 3).blk t).view.read (Elt Ideal)
      (outArr (V m c main_arg0) (V m c main_v117) (V m c main_v118)) := by
  rw [Value.flushed3]
  obtain ⟨-, -, -, -, -, -, e0, e1⟩ := index_facts t
  funext y
  rw [View.read_apply]
  refine block_eq_outArr (iblk m c 0 t) (iblk m c 1 t) (iblk m c 2 t) _ _ _ t.val
    (fun q k r hr => rows_block m c t q k r hr) (weights_block m c t) (bias_block m c t) y _ ?_ ?_
  · show win0_3.index t (0 : Fin 2) * 512 + 1 * (y 0).val = 512 * t.val + (y 0).val; omega
  · show win0_3.index t (1 : Fin 2) * 1024 + 1 * (y 1).val = (y 1).val; omega

/-! ## From the blocks to the array -/

/-- An index of the output is in point t's block iff each coordinate is in the block's range on its axis. -/
theorem mem_block (t : Fin cfg0.N) (i : S32768x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v119).slice (win0_3.rect t)).set ↔ _
  rw [View.set_slice_whole, Rect.mem_set_unit]
  exact Iff.rfl

/-- The 64 row blocks tile the 32768 rows: row r is in the block of point r / 512. -/
theorem cover (i : S32768x1024.Idx) :
    ∃ t : Fin cfg0.N, (cfg0.win 3).flush t = true ∧ i ∈ ((cfg0.win 3).blk t).view.set := by
  have h0 : (i 0).val < 32768 := idx2_lt0 i
  have h1 : (i 1).val < 1024 := idx2_lt1 i
  have hN : cfg0.N = 64 := N_0
  have ht : (i 0).val / 512 < cfg0.N := by rw [hN]; omega
  obtain ⟨-, -, -, -, -, -, e0, e1⟩ := index_facts ⟨(i 0).val / 512, ht⟩
  have e0' : win0_3.index ⟨(i 0).val / 512, ht⟩ (0 : Fin 2) = (i 0).val / 512 := e0
  refine ⟨⟨(i 0).val / 512, ht⟩, flush0_3 _, ?_⟩
  rw [mem_block]
  intro a
  match a with
  | ⟨0, _⟩ =>
    show win0_3.index ⟨(i 0).val / 512, ht⟩ (0 : Fin 2) * 512 ≤ (i 0).val
      ∧ (i 0).val < win0_3.index ⟨(i 0).val / 512, ht⟩ (0 : Fin 2) * 512 + 512
    omega
  | ⟨1, _⟩ =>
    show win0_3.index ⟨(i 0).val / 512, ht⟩ (1 : Fin 2) * 1024 ≤ (i 1).val
      ∧ (i 1).val < win0_3.index ⟨(i 0).val / 512, ht⟩ (1 : Fin 2) * 1024 + 1024
    omega

/-- The output array after the run is the specification of x as launched and of the weights and the bias row as
    the launch finds them. -/
theorem final (c : Dev nD) :
    (dats m 0 c).arrAt 3 cfg0.N
      = outArr (m ((c : Thread nD τ).loc main_arg0)) (V m c main_v117) (V m c main_v118) := by
  rw [← V_main_arg0 m c]
  exact (dats m 0 c).arrAt_eq_of_cover 3 _ (fun t _ => flushed_eq m c t) cover

/-! ## The run -/

/-- The run of the whole program: the output array is the specification, the three arguments are as launched. -/
theorem run_closed : θ_run (defs (F := Ideal)) (onTc (τ := τ) (main (F := Ideal))) ⟨m, fun _ => 0, ρ⟩ fun r => ∀ c : Dev nD,
      r.2.mem ((c : Thread nD τ).loc main_v119)
        = outArr (m ((c : Thread nD τ).loc main_arg0)) (V m c main_v117) (V m c main_v118)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end

end Cert.KernelIdeal.Arr

end
-- ==== Proof.ReferenceRows.lean ====
/-
  The reference's result, read entry by entry.

  The reference lays the rows of `x` out as a batch `[32768, 1, 1024]`, pushes the batch through the ten
  butterfly stages (`ButterflyStage.net`), flattens it back to `[32768, 1024]` and adds the bias along the rows.
  Its result term is that composition literally (`res_eq`), so entry `(r, o)` of the result is entry `o` of row
  `r` after the network, plus `bias o` (`result_apply`), and the rows before the network are the rows of `x`
  (`rows_apply`).
-/
import proofs.«124131_j34359738515_2_alg».proof.Proof.Gen.ReferenceIdeal.Run
import proofs.«124131_j34359738515_2_alg».proof.Proof.LibButterflyNet
import Idealize.ShloMosaic.Lib.Pipeline.Value
import Idealize.ShloMosaic.Lib.ValueIdx

noncomputable section

namespace Cert.ReferenceIdeal.Rows

open Cert.ReferenceIdeal Cert.ReferenceIdeal.Gen Idealize.ShloMosaic Idealize.ShloMosaic.TcCoe Idealize.SL.Sem
open ButterflyStage Idealize.ShloMosaic.ValueIdx

/-- The shape facts of the ten stages on the reference's batch of 32768 rows. -/
theorem facts : NetFacts 32768 := by
  constructor <;> (constructor <;> decide)

/-- The rows of `x` as a batch with a unit middle axis. -/
def rows (x : FVec Ideal ⟨2, ![32768, 1024]⟩ .f32) : FVec Ideal ⟨3, ![32768, 1, 1024]⟩ .f32 :=
  broadcastInDim ⟨3, ![32768, 1, 1024]⟩ ![0, 2] (by decide) x

/-- The reference's result as a function of its three arguments. -/
def result (x : FVec Ideal ⟨2, ![32768, 1024]⟩ .f32) (tw : FVec Ideal ⟨5, ![1, 10, 512, 2, 2]⟩ .f32)
    (bias : FVec Ideal ⟨1, ![1024]⟩ .f32) : FVec Ideal ⟨2, ![32768, 1024]⟩ .f32 :=
  addf (shapeCast ⟨2, ![32768, 1024]⟩ (net 32768 facts tw (rows x)) (by decide))
    (broadcastInDim ⟨2, ![32768, 1024]⟩ ![0, 1] (by decide)
      (broadcastInDim ⟨2, ![1, 1024]⟩ ![1] (by decide) bias))

/-- The run's result term is that function of the argument arrays. -/
theorem res_eq (m : (ℓ : Loc nD τ sig) → Buf (Elt Ideal) ℓ) (c : Dev nD) :
    Value.res_main_v114 (F := Ideal) m c
      = result (m ((c.tc : Thread nD τ).loc main_arg0)) (m ((c.tc : Thread nD τ).loc main_arg1))
          (m ((c.tc : Thread nD τ).loc main_arg2)) := rfl

/-- Row `r` of the batch before the network is row `r` of `x`. -/
theorem rows_apply (x : FVec Ideal ⟨2, ![32768, 1024]⟩ .f32) (r : Fin 32768) (j : Fin 1024) :
    rows x (ix3 r 0 j) = x (ix2 r j) := by
  unfold rows
  refine broadcastInDim_apply _ _ x (ix3 r 0 j) (ix2 r j) (fun a => ?_)
  match a with
  | ⟨0, _⟩ => exact keep_coord r
  | ⟨1, _⟩ => exact keep_coord j

/-- Entry `(r, o)` of the result: entry `o` of row `r` after the network, plus the bias at `o`. -/
theorem result_apply (x : FVec Ideal ⟨2, ![32768, 1024]⟩ .f32) (tw : FVec Ideal ⟨5, ![1, 10, 512, 2, 2]⟩ .f32)
    (bias : FVec Ideal ⟨1, ![1024]⟩ .f32) (r : Fin 32768) (o : Fin 1024) :
    result x tw bias (ix2 r o) = net 32768 facts tw (rows x) (ix3 r 0 o) + bias (ix1 o) := by
  unfold result
  refine (addf_apply _ _ _).trans (congrArg₂ (· + ·) ?_ ?_)
  · refine shapeCast_apply _ _ (ix2 r o) (ix3 r 0 o) ?_
    rw [Shape.rowMajor_val_three, Shape.rowMajor_val_two]
    show (r.val * 1 + 0) * 1024 + o.val = r.val * 1024 + o.val
    omega
  · refine (broadcastInDim_apply _ _ _ (ix2 r o) (ix2 0 o) (fun a => ?_)).trans ?_
    · match a with
      | ⟨0, _⟩ => exact unit_coord _
      | ⟨1, _⟩ => exact keep_coord o
    refine broadcastInDim_apply _ _ bias (ix2 0 o) (ix1 o) (fun a => ?_)
    match a with
    | ⟨0, _⟩ => exact keep_coord o

end Cert.ReferenceIdeal.Rows

end
-- ==== Proof.Bridge.lean ====
/-
  The two sides are one function of the arguments.

  Entry `(r, o)` of the reference's result is entry `o` of row `r` of `x` after the butterfly network, plus
  `bias o`.  Entry `(r, o)` of the kernel's result is `(∑ k, x(r, k) · W(k, o)) + bias o`, where row `k` of `W` is
  the `k`-th unit row after the same network.  The network is linear on real rows
  (`ButterflyStage.net_apply`): for finite `x` and finite twiddles the row after the network is the sum over
  `k` of `x(r, k)` times the `k`-th unit row after it.  That is the whole bridge; the bias needs no finiteness.
-/
import proofs.«124131_j34359738515_2_alg».proof.Proof.KernelArray
import proofs.«124131_j34359738515_2_alg».proof.Proof.KernelHost
import proofs.«124131_j34359738515_2_alg».proof.Proof.ReferenceRows

noncomputable section

namespace Cert.Proof.Bridge

open Idealize.ShloMosaic Idealize.ShloMosaic.ValueIdx ButterflyStage
open Cert.KernelIdeal.HostArrays (weights biasRow)

/-- For finite `x` and finite twiddles the reference's result array is the kernel's: the rows of `x` times the
    network's matrix, plus the bias row. -/
theorem arrays_eq (x : FVec Ideal ⟨2, ![32768, 1024]⟩ .f32) (tw : FVec Ideal ⟨5, ![1, 10, 512, 2, 2]⟩ .f32)
    (bias : FVec Ideal ⟨1, ![1024]⟩ .f32) (hx : ∀ i, ∃ r : ℝ, x i = (r : EReal))
    (htw : ∀ i, ∃ r : ℝ, tw i = (r : EReal)) :
    Cert.ReferenceIdeal.Rows.result x tw bias = Cert.KernelIdeal.Arr.outArr x (weights tw) (biasRow bias) := by
  funext idx
  obtain ⟨r, o, rfl⟩ : ∃ (r : Fin 32768) (o : Fin 1024), idx = ix2 r o := ⟨idx 0, idx 1, eq_ix2 idx⟩
  choose x' hx' using hx
  choose tw' htw' using htw
  rw [Cert.ReferenceIdeal.Rows.result_apply, Cert.KernelIdeal.Arr.outArr_apply,
    Cert.KernelIdeal.HostArrays.biasRow_apply]
  refine congrArg₂ (· + ·) ?_ rfl
  rw [net_apply Cert.ReferenceIdeal.Rows.facts Cert.KernelIdeal.HostArrays.facts htw'
    (x' := fun j => x' (ix2 r j)) r (fun j => by rw [Cert.ReferenceIdeal.Rows.rows_apply, hx'])
    Cert.KernelIdeal.HostArrays.idRows_apply o]
  exact Finset.sum_congr rfl fun k _ => by
    rw [hx' (ix2 r k), Cert.KernelIdeal.HostArrays.weights_apply]

end Cert.Proof.Bridge

end
-- ==== Proof.lean ====
/-
  The certificate of the butterfly kernel against its reference.

  The reference pushes every row of `x` through ten butterfly stages (2×2 multiplies on pairs of entries at
  distance 1, 2, …, 512, with coefficients from the twiddle array) and adds the bias.  The kernel pushes the
  1024 × 1024 identity through the same ten stages once, on the host, to get a dense matrix `W`, and then
  computes `x · W + bias` block of rows by block of rows.  The two agree on the extended reals because the
  network is linear on finite rows: a row after the network is the combination, with the row's entries as
  coefficients, of the unit rows after the network.  Finite `x` and finite twiddles are what the precondition gives.

  The modules: LibLinearNetwork (the linear relation and its invariance under a sparse stage),
  LibButterflyStage (one stage's array operations read at an entry, any batch size), LibButterflyNet (the ten
  stages), ReferenceRows, KernelHost and KernelHostTerms (the two programs' host terms as that network),
  IdentityMatrix, FiniteInputs (the precondition as real entries), KernelArray (the launch's output array as
  one function), Bridge (the two functions are equal).  The three frames are the generated ones; the
  idealization rewrote nothing.
-/
import proofs.«124131_j34359738515_2_alg».proof.Defs
import proofs.«124131_j34359738515_2_alg».proof.Proof.Gen.Kernel
import proofs.«124131_j34359738515_2_alg».proof.Proof.Gen.Kernel.Skeleton
import proofs.«124131_j34359738515_2_alg».proof.Proof.Gen.Kernel.Launch
import proofs.«124131_j34359738515_2_alg».proof.Proof.Gen.Kernel.Points
import proofs.«124131_j34359738515_2_alg».proof.Proof.Gen.Kernel.Frame
import proofs.«124131_j34359738515_2_alg».proof.Proof.Gen.KernelIdeal
import proofs.«124131_j34359738515_2_alg».proof.Proof.Gen.KernelIdeal.Skeleton
import proofs.«124131_j34359738515_2_alg».proof.Proof.Gen.KernelIdeal.Launch
import proofs.«124131_j34359738515_2_alg».proof.Proof.Gen.KernelIdeal.Points
import proofs.«124131_j34359738515_2_alg».proof.Proof.Gen.KernelIdeal.Frame
import proofs.«124131_j34359738515_2_alg».proof.Proof.Gen.ReferenceIdeal
import proofs.«124131_j34359738515_2_alg».proof.Proof.Gen.Pre_finite_inputs
import proofs.«124131_j34359738515_2_alg».proof.Proof.Gen.KernelIdeal.Value
import proofs.«124131_j34359738515_2_alg».proof.Proof.Gen.ReferenceIdeal.Run
import proofs.«124131_j34359738515_2_alg».proof.Proof.FiniteInputs
import proofs.«124131_j34359738515_2_alg».proof.Proof.KernelHostTerms
import proofs.«124131_j34359738515_2_alg».proof.Proof.Bridge
import Idealize.ShloMosaic.Adequacy
import Idealize.ShloMosaic.Init

noncomputable section

namespace Cert.Proof

open Idealize.ShloMosaic Idealize.SL.Sem

namespace Claims

theorem frame_k : Cert.frame_Kernel := fun m ρ _ => Cert.Kernel.Gen.frame m ρ

theorem frame_ki : Cert.frame_KernelIdeal := fun m ρ _ => Cert.KernelIdeal.Gen.frame m ρ

/-- The reference has no launch: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the array `x · W + bias`: the kernel's by its launch read as one function of the
    operand arrays, the reference's because its rows-through-the-network term is that function for finite
    arguments. -/
theorem algebraic : Cert.algebraic_KernelIdeal_ReferenceIdeal := by
  intro m ρ m' ρ' hpre hagree
  refine ⟨fun c => Cert.KernelIdeal.Arr.outArr (m ((c.tc : Thread _ _).loc Cert.KernelIdeal.main_arg0))
      (Cert.KernelIdeal.Gen.V m c Cert.KernelIdeal.main_v117) (Cert.KernelIdeal.Gen.V m c Cert.KernelIdeal.main_v118),
    Cert.KernelIdeal.Arr.run_closed m ρ, ?_⟩
  refine (θ_run Cert.ReferenceIdeal.defs _ _).mono (fun _ h c => ⟨(h c).1.trans ?_, (h c).2⟩)
    (Cert.ReferenceIdeal.Value.run (F := Ideal) m' ρ')
  have hreal := Cert.KernelIdeal.Finite.real_args m hpre c
  beta_reduce
  rw [Cert.ReferenceIdeal.Rows.res_eq, (hagree c).1, (hagree c).2.1, (hagree c).2.2,
    Cert.KernelIdeal.HostArrays.weights_eq, Cert.KernelIdeal.HostArrays.bias_eq]
  exact Bridge.arrays_eq _ _ _ hreal.1 hreal.2.1

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
